-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 60
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x64, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S_, .f32⟩
  | .hbm, ⟨55, _⟩ => ⟨S50000x64, .f32⟩
  | .hbm, ⟨56, _⟩ => ⟨S850000x1, .i32⟩
  | .hbm, ⟨57, _⟩ => ⟨S50000x64, .f32⟩
  | .hbm, ⟨58, _⟩ => ⟨S1x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000, .f32⟩
  | .hbm, ⟨101, _⟩ => ⟨S850000, .f32⟩
  | .hbm, ⟨102, _⟩ => ⟨S50000x64, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel program's run with its RESULT named: every weakly fair execution of @main ends with the result
  array at the contents the last segment boundary gives it, and the six argument arrays as launched. The run is the
  nine segments of @main — host stretches and the four pipelined regions — taken from the launch memory; the contents at
  the last boundary are read off the thread's final state for the result buffer exactly as for an argument.
-/
import proofs.«130912_j54537494724630_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v41) = W9 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v41 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.LibConcat.lean ====
/-
  Two general tools for reading a fold of host operations when one of them is a concatenation.

  The host's concatenation takes a LIST of arrays, each paired with its shape, and its side condition (the shapes fit
  together along the axis) is stated about that list; so the list cannot be rewritten in place, and a fold of operations
  standing inside it is never read. For two arrays, `cat2` is the same concatenation as a function of the two arrays
  with the shapes fixed first, `concatenate_pair` says so, and the tactic `fold_results` reads a fold of nullary to
  ternary host operations at a buffer — each operation's result at its own buffer is its function of its operands, at
  any other buffer what was there — going through two-array concatenations by that equation.
-/
import Idealize.ShloMosaic.Lib.StableHlo.Run

noncomputable section

namespace Cert.LibConcat

open Idealize.ShloMosaic Idealize.ShloMosaic.StableHlo

variable {α : Type}

/-- The concatenation of two arrays along axis `a`, as a function of the two arrays. -/
def cat2 (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The host's concatenation of a two-element list is `cat2` of its two arrays. -/
theorem concatenate_pair (t : Shape) (a : Fin t.rank) (s1 s2 : Shape) (x : s1.Idx → α) (y : s2.Idx → α)
    (h : Shape.Concatenates (List.map (Sigma.fst (β := fun s : Shape => s.Idx → α)) [⟨s1, x⟩, ⟨s2, y⟩]) t a) :
    concatenate t a [⟨s1, x⟩, ⟨s2, y⟩] h = cat2 t a s1 s2 h x y := rfl

/-- Reads a fold of host operations at a buffer, in one simplification pass, through two-array concatenations. -/
macro "fold_results" : tactic =>
  `(tactic| (simp (disch := decide) only [after_cons, after_nil,
      nullary_result', unary_result', binary_result', ternary_result',
      nullary_result_ne', unary_result_ne', binary_result_ne', ternary_result_ne', concatenate_pair]))

end Cert.LibConcat

end
-- ==== Proof.GcnSpec.lean ====
/-
  A two-layer graph convolution over 50000 nodes and 850000 edge endpoints, entry by entry over the extended reals, in the
  two arrangements the programs compute it in, and the law that joins them.

  Every edge `e` carries two 32-bit words, its source `sR e` and its target `dR e`. A word read as a row of a
  50000-row table is first wrapped (a negative word has 50000 added) and then clamped into the table: `rowOf`. An edge
  lands on node `n` when its target word, read signed and NOT wrapped, is `n`. The in-degree `degOf` counts the
  edges landing on a node; `dinvOf` is its inverse square root where the degree is positive and `0` elsewhere.

  One layer sends `h` to the sum, over the edges landing on `n`, of the row of `h · W` at the edge's source,
  weighted by both endpoints' `dinvOf`, plus a bias. `layerR` weights every term by the product of the two factors;
  `layerK` weights the terms by the source's factor and the finished sum by the target's. The two agree because the
  target's factor is a nonnegative REAL whatever the degree is (`dinvOf_real`), so it distributes over the sum on the
  extended reals (`sum_mul_real`), and because an edge that lands on `n` has the row `n` as its target row
  (`rowOf_of_lands`). No entry of the inputs needs to be finite.
-/
import Idealize.ShloMosaic.Lib.ValueIdx
import Idealize.ShloMosaic.PureOps.Ideal.Laws

noncomputable section

namespace Cert.Gcn

open Idealize.ShloMosaic Idealize.ShloMosaic.ValueIdx

/-- The float zero word's value. -/
abbrev z : EReal := Ideal.ofBits .f32 0x00000000#32
/-- The float one word's value. -/
abbrev one : EReal := Ideal.ofBits .f32 0x3F800000#32

/-- A signed word clamped into the rows of a 50000-row table. -/
def clampRow (v : BitVec 32) : Fin 50000 := ⟨min v.toInt.toNat (50000 - 1), by omega⟩

/-- A negative word wrapped by the table's length (`x[i]` with `i < 0` means `x[i + 50000]`). -/
def wrapW (v : BitVec 32) : BitVec 32 :=
  Scalar.select (IntOp.cmpi .slt v 0#32) (IntOp.addi v 50000#32) v

/-- The table row a word names: wrapped, then clamped. -/
def rowOf (v : BitVec 32) : Fin 50000 := clampRow (wrapW v)

variable (sR dR : Fin 850000 → BitVec 32)

/-- The number of edges landing on `n`, as the float sum computes it from zero. -/
def degOf (n : Fin 50000) : EReal :=
  z + ∑ e : Fin 850000, if (dR e).toInt = (n.val : ℤ) then one else 0

/-- `where(deg > 0, rsqrt(deg), 0)` of an extended real. -/
def guardedRsqrt (x : EReal) : EReal := Scalar.select (Ideal.cmp .ogt x z) (Ideal.rsqrt x) z

/-- The normalisation factor of node `n`. -/
def dinvOf (n : Fin 50000) : EReal := guardedRsqrt (degOf dR n)

/-- Entry `(r, l)` of `h · W`. -/
def mm {K C : ℕ} (h : Fin 50000 → Fin K → EReal) (W : Fin K → Fin C → EReal) (r : Fin 50000) (l : Fin C) : EReal :=
  ∑ k : Fin K, h r k * W k l

/-- One layer with the target's factor applied to the finished sum. -/
def layerK {K C : ℕ} (h : Fin 50000 → Fin K → EReal) (W : Fin K → Fin C → EReal) (b : Fin C → EReal)
    (n : Fin 50000) (l : Fin C) : EReal :=
  (z + ∑ e : Fin 850000, if (dR e).toInt = (n.val : ℤ) then mm h W (rowOf (sR e)) l * dinvOf dR (rowOf (sR e)) else 0)
    * dinvOf dR n + b l

/-- One layer with both factors applied to every term. -/
def layerR {K C : ℕ} (h : Fin 50000 → Fin K → EReal) (W : Fin K → Fin C → EReal) (b : Fin C → EReal)
    (n : Fin 50000) (l : Fin C) : EReal :=
  (z + ∑ e : Fin 850000, if (dR e).toInt = (n.val : ℤ)
      then mm h W (rowOf (sR e)) l * (dinvOf dR (rowOf (sR e)) * dinvOf dR (rowOf (dR e))) else 0) + b l

/-- The positive part, entry by entry. -/
def reluF {C : ℕ} (f : Fin 50000 → Fin C → EReal) (n : Fin 50000) (l : Fin C) : EReal := max (f n l) z

/-- Both layers, the first followed by the positive part: the target's factor outside the sums. -/
def outK (X : Fin 50000 → Fin 128 → EReal) (W1 : Fin 128 → Fin 128 → EReal) (b1 : Fin 128 → EReal)
    (W2 : Fin 128 → Fin 64 → EReal) (b2 : Fin 64 → EReal) : Fin 50000 → Fin 64 → EReal :=
  layerK sR dR (reluF (layerK sR dR X W1 b1)) W2 b2

/-- Both layers, the first followed by the positive part: both factors inside the sums. -/
def outR (X : Fin 50000 → Fin 128 → EReal) (W1 : Fin 128 → Fin 128 → EReal) (b1 : Fin 128 → EReal)
    (W2 : Fin 128 → Fin 64 → EReal) (b2 : Fin 64 → EReal) : Fin 50000 → Fin 64 → EReal :=
  layerR sR dR (reluF (layerR sR dR X W1 b1)) W2 b2

/-! ## The dense steps as whole arrays -/

/-- The row coordinate of an index of a two-axis array, as a number below the literal extent. -/
def c0 {a b : ℕ} (i : (⟨2, ![a, b]⟩ : Shape).Idx) : Fin a := ⟨(i 0).val, idx2_lt0 i⟩
/-- The column coordinate of an index of a two-axis array, as a number below the literal extent. -/
def c1 {a b : ℕ} (i : (⟨2, ![a, b]⟩ : Shape).Idx) : Fin b := ⟨(i 1).val, idx2_lt1 i⟩

theorem c0_ix2 {a b : ℕ} (r : Fin a) (l : Fin b) : c0 (ix2 r l) = r := rfl
theorem c1_ix2 {a b : ℕ} (r : Fin a) (l : Fin b) : c1 (ix2 r l) = l := rfl
theorem ix2_c0_c1 {a b : ℕ} (i : (⟨2, ![a, b]⟩ : Shape).Idx) : ix2 (c0 i) (c1 i) = i := (eq_ix2 i).symm

/-- `(x · w) * d[:, None]`: the matrix product with every row `r` scaled by the column vector's entry `d (r, 0)`. -/
def linArr {K C : ℕ} (x : (⟨2, ![50000, K]⟩ : Shape).Idx → EReal) (w : (⟨2, ![K, C]⟩ : Shape).Idx → EReal)
    (d : (⟨2, ![50000, 1]⟩ : Shape).Idx → EReal) : (⟨2, ![50000, C]⟩ : Shape).Idx → EReal :=
  fun i => (∑ k : Fin K, x (ix2 (c0 i) k) * w (ix2 k (c1 i))) * d (ix2 (c0 i) (0 : Fin 1))

/-- `a * d[:, None] + b`: every row `r` scaled by `d (r, 0)`, then the one-row matrix `b` added to every row. -/
def finArr {C : ℕ} (a : (⟨2, ![50000, C]⟩ : Shape).Idx → EReal) (d : (⟨2, ![50000, 1]⟩ : Shape).Idx → EReal)
    (b : (⟨2, ![1, C]⟩ : Shape).Idx → EReal) : (⟨2, ![50000, C]⟩ : Shape).Idx → EReal :=
  fun i => a i * d (ix2 (c0 i) (0 : Fin 1)) + b (ix2 (0 : Fin 1) (c1 i))

/-- The same followed by the positive part. -/
def finReluArr {C : ℕ} (a : (⟨2, ![50000, C]⟩ : Shape).Idx → EReal) (d : (⟨2, ![50000, 1]⟩ : Shape).Idx → EReal)
    (b : (⟨2, ![1, C]⟩ : Shape).Idx → EReal) : (⟨2, ![50000, C]⟩ : Shape).Idx → EReal :=
  fun i => max (finArr a d b i) z

/-! ## The law -/

/-- The float zero word is the real zero. -/
theorem z_eq : z = 0 := Ideal.ofBits_zero_f32

/-- The guarded inverse square root of ANY extended real is a nonnegative real: `0` where the guard fails, `0` at
    `+inf`, `1 / sqrt r` at a positive real `r`. -/
theorem guardedRsqrt_real (x : EReal) : ∃ r : ℝ, 0 ≤ r ∧ guardedRsqrt x = (r : EReal) := by
  unfold guardedRsqrt
  rw [z_eq]
  by_cases h : (0 : EReal) < x
  · have hc : Ideal.cmp .ogt x 0 = 1#1 := by simp [Ideal.cmp, h]
    rw [hc, select_one]
    induction x using EReal.rec with
    | bot => exact absurd h (by simp)
    | top => exact ⟨0, le_refl _, rfl⟩
    | coe r =>
      have hr : 0 < r := by exact_mod_cast h
      refine ⟨(Real.sqrt r)⁻¹, inv_nonneg.mpr (Real.sqrt_nonneg r), ?_⟩
      show (if r < 0 then (⊥ : EReal) else if r = 0 then ⊤ else ((Real.sqrt r)⁻¹ : ℝ)) = _
      rw [if_neg (not_lt.mpr hr.le), if_neg hr.ne']
  · have hc : Ideal.cmp .ogt x 0 = 0#1 := by simp [Ideal.cmp, h]
    rw [hc, select_zero]
    exact ⟨0, le_refl _, rfl⟩

theorem dinvOf_real (n : Fin 50000) : ∃ r : ℝ, 0 ≤ r ∧ dinvOf dR n = (r : EReal) := guardedRsqrt_real _

/-- A nonnegative real factor distributes over a finite sum of extended reals. -/
theorem sum_mul_real {ι : Type*} (s : Finset ι) (f : ι → EReal) (r : ℝ) (hr : 0 ≤ r) :
    (∑ e ∈ s, f e) * (r : EReal) = ∑ e ∈ s, f e * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- An edge landing on `n` has `n` as its target row: its target word is nonnegative, so it is not wrapped, and
    below 50000, so it is not clamped. -/
theorem rowOf_of_lands (v : BitVec 32) (n : Fin 50000) (h : v.toInt = (n.val : ℤ)) : rowOf v = n := by
  have hn := n.isLt
  have hnot : ¬ v.slt 0#32 := by
    rw [BitVec.slt_iff_toInt_lt]
    simp only [BitVec.toInt_zero]
    omega
  have hw : wrapW v = v := by
    unfold wrapW
    have : IntOp.cmpi .slt v 0#32 = 0#1 := by
      simp only [IntOp.cmpi]
      simp [hnot]
    rw [this, select_zero]
  unfold rowOf clampRow
  rw [hw]
  apply Fin.ext
  show min v.toInt.toNat (50000 - 1) = n.val
  omega

/-- The two arrangements of one layer agree, for any input, weights and bias. -/
theorem layerK_eq_layerR {K C : ℕ} (h : Fin 50000 → Fin K → EReal) (W : Fin K → Fin C → EReal) (b : Fin C → EReal) :
    layerK sR dR h W b = layerR sR dR h W b := by
  funext n l
  unfold layerK layerR
  obtain ⟨r, hr, hd⟩ := dinvOf_real dR n
  refine congrArg (· + b l) ?_
  rw [z_eq, zero_add, zero_add, hd, sum_mul_real _ _ r hr]
  refine Finset.sum_congr rfl fun e _ => ?_
  by_cases he : (dR e).toInt = (n.val : ℤ)
  · rw [if_pos he, if_pos he, rowOf_of_lands (dR e) n he, hd, mul_assoc]
  · rw [if_neg he, if_neg he, zero_mul]

/-- The two arrangements of the whole network agree. -/
theorem outK_eq_outR (X : Fin 50000 → Fin 128 → EReal) (W1 : Fin 128 → Fin 128 → EReal) (b1 : Fin 128 → EReal)
    (W2 : Fin 128 → Fin 64 → EReal) (b2 : Fin 64 → EReal) :
    outK sR dR X W1 b1 W2 b2 = outR sR dR X W1 b1 W2 b2 := by
  unfold outK outR
  rw [layerK_eq_layerR, layerK_eq_layerR]

end Cert.Gcn

end
-- ==== Proof.LibScatter.lean ====
/-
  A gather of rows, a scatter of rows, and a column overwritten, each read at an index.

  Three arrangements of the host's indexed operations over a table of `N` rows:

  * `x[idx]` for a table `x : [N, C]` and one index per result row, `idx : [R, 1]`: result row `e` is the table's
    row at the start index `idx[e, 0]`, read as a signed integer and clamped into `[0, N - 1]`;
  * the accumulating scatter of `R` update rows (or `R` update scalars) into a table of `N` rows (or `N` scalars) at one
    index per update: over the extended reals entry `(n, l)` ends at the operand's entry plus the sum of the updates'
    entries `(e, l)` over the updates `e` whose index, read signed and NOT clamped, is `n`; an update whose index is
    outside the table contributes nothing;
  * the overwriting scatter of one column: `x.at[:, k].set(v)` for `x : [R, C]`, `v : [R]`, the column `k` given by
    a one-element index vector: entry `(e, l)` ends at `v e` when `l` is that column and is unchanged otherwise.
-/
import Idealize.ShloMosaic.Lib.ValueIdx
import Idealize.ShloMosaic.PureOps.Ideal.Laws

noncomputable section

namespace Cert.LibScatter

open Idealize.ShloMosaic Idealize.ShloMosaic.ValueIdx

variable {N R C w : ℕ}

/-! ## The dimension numbers -/

/-- `x[idx]` along axis 0 of a table `[N, C]` at start indices `[R, 1]`: whole rows are taken. -/
abbrev rowGatherDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ :=
  ⟨[1], [0], [], [], [0], 1, ![1, C], wf⟩

/-- Update rows `[R, C]` scattered into a table `[N, C]` at scatter indices `[R, 1]`. -/
abbrev rowScatterDims (N R C : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ :=
  ⟨[1], [0], [0], 1, wf⟩

/-- Update scalars `[R]` scattered into a vector `[N]` at scatter indices `[R, 1]`. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ :=
  ⟨[], [0], [0], 1, wf⟩

/-- A column `[R]` written into a matrix `[R, C]` at the column a one-element index vector names. -/
abbrev colSetDims (R C : ℕ)
    (wf : ScatterDims.WF ⟨2, ![R, C]⟩ ⟨1, ![1]⟩ ⟨1, ![R]⟩ [0] [1] [1] 0) :
    ScatterDims ⟨2, ![R, C]⟩ ⟨1, ![1]⟩ ⟨1, ![R]⟩ :=
  ⟨[0], [1], [1], 0, wf⟩

/-! ## Where an update lands -/

/-- An update lands on the operand index `i` exactly when on every axis its start, read signed, plus its window
    coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro he a
      have h2 := congrFun (Option.some.inj he) a
      have h3 : (d.start j idx a + (d.window j a : ℤ)).toNat = (i a).val := congrArg Fin.val h2
      have := (h a).1
      omega
    · intro he
      congr 1
      funext a
      apply Fin.ext
      show (d.start j idx a + (d.window j a : ℤ)).toNat = (i a).val
      have := he a
      omega
  · rename_i h
    constructor
    · intro he; cases he
    · intro he
      exfalso; apply h
      intro a
      have := he a
      have := (i a).isLt
      omega

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ## The accumulating scatters, over the extended reals -/

/-- On the scattered axis a row update's start plus window coordinate is its index, read signed. -/
theorem rowScatter_axis0 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 0 + ((rowScatterDims N R C wf).window (ix2 e l') 0 : ℤ)
      = (idx (ix2 e (0 : Fin 1))).toInt := by
  have hw : (rowScatterDims N R C wf).window (ix2 e l') 0 = 0 := rfl
  rw [hw]
  unfold ScatterDims.start
  rw [dif_pos (show (0 : Fin 2) ∈ (rowScatterDims N R C wf).scatterDimsToOperandDims from List.mem_singleton.mpr rfl)]
  have hsi : (rowScatterDims N R C wf).siIdx (ix2 e l') ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- On the window axis a row update's start plus window coordinate is its column. -/
theorem rowScatter_axis1 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 1 + ((rowScatterDims N R C wf).window (ix2 e l') 1 : ℤ)
      = (l'.val : ℤ) := by
  have hw : (rowScatterDims N R C wf).window (ix2 e l') 1 = l'.val := rfl
  have hs : (rowScatterDims N R C wf).start (ix2 e l') idx 1 = 0 := rfl
  rw [hw, hs]
  simp

/-- The update entry `(e, l')` lands on `(n, l)` exactly when update `e`'s index is `n` and `l' = l`. -/
theorem rowScatter_lands (wf : ScatterDims.WF ⟨2, ![N, C]⟩ ⟨2, ![R, 1]⟩ ⟨2, ![R, C]⟩ [1] [0] [0] 1)
    (idx : IVec ⟨2, ![R, 1]⟩ w) (e : Fin R) (l' : Fin C) (n : Fin N) (l : Fin C) :
    (rowScatterDims N R C wf).resultIdx? (ix2 e l') idx = some (ix2 n l)
      ↔ (idx (ix2 e (0 : Fin 1))).toInt = (n.val : ℤ) ∧ l' = l := by
  rw [resultIdx?_eq_some_iff]
  constructor
  · intro h
    have h0 : (idx (ix2 e (0 : Fin 1))).toInt = (n.val : ℤ) := (rowScatter_axis0 wf idx e l').symm.trans (h 0)
    have h1 : (l'.val : ℤ) = (l.val : ℤ) := (rowScatter_axis1 wf idx e l').symm.trans (h 1)
    exact ⟨h0, Fin.ext (by exact_mod_cast h1)⟩
  · rintro ⟨h0, rfl⟩ a
    match a with
    | ⟨0, _⟩ => exact (rowScatter_axis0 wf idx e l').trans h0
    | ⟨1, _⟩ => exact rowScatter_axis1 wf idx e l'

/-- Entry `(n, l)` after the accumulating scatter of rows: the operand's entry plus the entries `(e, l)` of the update
    rows whose index is `n`. -/
theorem rowScatterAdd_apply {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (n : Fin N) (l : Fin C) :
    Host.scatterAdd (F := Ideal) (rowScatterDims N R C wf) x idx upd (ix2 n l)
      = x (ix2 n l) + ∑ e : Fin R, if (idx (ix2 e (0 : Fin 1))).toInt = (n.val : ℤ) then upd (ix2 e l) else 0 := by
  show x (ix2 n l) + ∑ j ∈ Finset.univ.filter
      (fun j => (rowScatterDims N R C wf).resultIdx? j idx = some (ix2 n l)), upd j = _
  congr 1
  rw [Finset.sum_filter, sum_idx2]
  refine Finset.sum_congr rfl fun e _ => ?_
  simp only [rowScatter_lands]
  by_cases h : (idx (ix2 e (0 : Fin 1))).toInt = (n.val : ℤ)
  · simp only [h, true_and, if_true]
    rw [Finset.sum_ite_eq']
    simp
  · simp [h]

/-- On its one axis a scalar update's start plus window coordinate is its index, read signed. -/
theorem vecScatter_axis0 (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx 0 + ((vecScatterDims N R wf).window (ix1 e) 0 : ℤ)
      = (idx (ix2 e (0 : Fin 1))).toInt := by
  have hw : (vecScatterDims N R wf).window (ix1 e) 0 = 0 := rfl
  rw [hw]
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- The update `e` lands on `n` exactly when its index is `n`. -/
theorem vecScatter_lands (wf : ScatterDims.WF ⟨1, ![N]⟩ ⟨2, ![R, 1]⟩ ⟨1, ![R]⟩ [] [0] [0] 1)
    (idx : IVec ⟨2, ![R, 1]⟩ w) (e : Fin R) (n : Fin N) :
    (vecScatterDims N R wf).resultIdx? (ix1 e) idx = some (ix1 n)
      ↔ (idx (ix2 e (0 : Fin 1))).toInt = (n.val : ℤ) := by
  rw [resultIdx?_eq_some_iff]
  constructor
  · intro h
    exact (vecScatter_axis0 wf idx e).symm.trans (h 0)
  · intro h0 a
    match a with
    | ⟨0, _⟩ => exact (vecScatter_axis0 wf idx e).trans h0

/-- Entry `n` after the accumulating scatter of scalars: the operand's entry plus the updates whose index is `n`. -/
theorem vecScatterAdd_apply {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (F := Ideal) (vecScatterDims N R wf) x idx upd (ix1 n)
      = x (ix1 n) + ∑ e : Fin R, if (idx (ix2 e (0 : Fin 1))).toInt = (n.val : ℤ) then upd (ix1 e) else 0 := by
  show x (ix1 n) + ∑ j ∈ Finset.univ.filter
      (fun j => (vecScatterDims N R wf).resultIdx? j idx = some (ix1 n)), upd j = _
  congr 1
  rw [Finset.sum_filter, sum_idx1]
  refine Finset.sum_congr rfl fun e _ => ?_
  simp only [vecScatter_lands]

/-! ## The gather of rows -/

/-- Result entry `(e, l)` of the row gather is the table's entry `(r, l)`, `r` the start index `idx[e, 0]` read signed and
    clamped into `[0, N - 1]`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (l : Fin C) :
    Host.gather (rowGatherDims N R C wf) x idx (ix2 e l)
      = x (ix2 (⟨min (idx (ix2 e (0 : Fin 1))).toInt.toNat (N - 1), by omega⟩ : Fin N) l) := by
  unfold Host.gather
  congr 1
  funext a
  refine Fin.ext ?_
  match a with
  | ⟨0, _⟩ =>
    show (rowGatherDims N R C wf).start (ix2 e l) idx 0 + (rowGatherDims N R C wf).batchCoord (ix2 e l) 0
      + (rowGatherDims N R C wf).offCoord (ix2 e l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e l) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e l) idx 1 + (rowGatherDims N R C wf).batchCoord (ix2 e l) 1
      + (rowGatherDims N R C wf).offCoord (ix2 e l) 1 = l.val
    rw [GatherDims.batchCoord_eq_zero _ _ _ List.not_mem_nil]
    have hs : (rowGatherDims N R C wf).start (ix2 e l) idx 1 = 0 := rfl
    have ho : (rowGatherDims N R C wf).offCoord (ix2 e l) 1 = l.val := rfl
    rw [hs, ho]
    simp

/-! ## One column overwritten -/

/-- A left fold of steps that leave entry `i` alone leaves it alone. -/
theorem foldl_at_of_miss {ι β γ : Type} (step : (ι → β) → γ → (ι → β)) (i : ι) (lands : γ → Prop)
    (hmiss : ∀ r n, ¬ lands n → step r n i = r i) :
    ∀ (L : List γ) (r : ι → β), (∀ n ∈ L, ¬ lands n) → L.foldl step r i = r i := by
  intro L
  induction L with
  | nil => intro r _; rfl
  | cons n L ih =>
    intro r h
    rw [List.foldl_cons, ih _ (fun m hm => h m (List.mem_cons_of_mem _ hm)),
      hmiss r n (h n (List.mem_cons.mpr (Or.inl rfl)))]

/-- A left fold of steps each of which either leaves entry `i` alone or sets it to its own value: when every step that
    sets it sets it to `v`, and the entry is `v` at the start or some step sets it, the entry ends at `v`. -/
theorem foldl_at_of_hit {ι β γ : Type} (step : (ι → β) → γ → (ι → β)) (i : ι) (lands : γ → Prop) (val : γ → β) (v : β)
    (hmiss : ∀ r n, ¬ lands n → step r n i = r i) (hhit : ∀ r n, lands n → step r n i = val n) :
    ∀ (L : List γ) (r : ι → β), (∀ n ∈ L, lands n → val n = v) → (r i = v ∨ ∃ n ∈ L, lands n) →
      L.foldl step r i = v := by
  intro L
  induction L with
  | nil =>
    intro r _ h
    rcases h with h | ⟨n, hn, _⟩
    · exact h
    · cases hn
  | cons n L ih =>
    intro r hv h
    rw [List.foldl_cons]
    apply ih _ (fun m hm => hv m (List.mem_cons_of_mem _ hm))
    by_cases hl : lands n
    · left; rw [hhit r n hl]; exact hv n (List.mem_cons.mpr (Or.inl rfl)) hl
    · rcases h with h | ⟨m, hm, hlm⟩
      · left; rw [hmiss r n hl]; exact h
      · rcases List.mem_cons.mp hm with rfl | hm'
        · exact absurd hlm hl
        · right; exact ⟨m, hm', hlm⟩

/-- The overwriting scatter leaves alone an entry no update lands on. -/
theorem scatter_set_of_miss {s si u : Shape} {α : Type} (d : ScatterDims s si u) {w : ℕ} (x : s.Idx → α)
    (idx : IVec si w) (upd : u.Idx → α) (i : s.Idx) (h : ∀ j, d.resultIdx? j idx ≠ some i) :
    Host.scatter d (fun _ b => b) x idx upd i = x i := by
  unfold Host.scatter
  refine foldl_at_of_miss _ i (fun n => d.resultIdx? (u.rowMajor.symm n) idx = some i) ?_ _ x (fun n _ => h _)
  intro r n hl
  dsimp only
  cases hres : d.resultIdx? (u.rowMajor.symm n) idx with
  | none => rfl
  | some i1 =>
    dsimp only
    rw [if_neg]
    rintro rfl
    exact hl hres

/-- The overwriting scatter sets an entry that some update lands on, every update landing on it carrying one value, to
    that value. -/
theorem scatter_set_of_hit {s si u : Shape} {α : Type} (d : ScatterDims s si u) {w : ℕ} (x : s.Idx → α)
    (idx : IVec si w) (upd : u.Idx → α) (i : s.Idx) (j0 : u.Idx) (h0 : d.resultIdx? j0 idx = some i)
    (h : ∀ j, d.resultIdx? j idx = some i → upd j = upd j0) :
    Host.scatter d (fun _ b => b) x idx upd i = upd j0 := by
  unfold Host.scatter
  refine foldl_at_of_hit _ i (fun n => d.resultIdx? (u.rowMajor.symm n) idx = some i)
    (fun n => upd (u.rowMajor.symm n)) (upd j0) ?_ ?_ _ x (fun n _ hl => h _ hl)
    (Or.inr ⟨u.rowMajor j0, List.mem_finRange _, by rw [Equiv.symm_apply_apply]; exact h0⟩)
  · intro r n hl
    dsimp only
    cases hres : d.resultIdx? (u.rowMajor.symm n) idx with
    | none => rfl
    | some i1 =>
      dsimp only
      rw [if_neg]
      rintro rfl
      exact hl hres
  · intro r n hl
    dsimp only at hl ⊢
    rw [hl]
    dsimp only
    rw [if_pos rfl]

/-- On the row axis a column entry's start plus window coordinate is its row. -/
theorem colSet_axis0 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 0 + ((colSetDims R C wf).window (ix1 e') 0 : ℤ) = (e'.val : ℤ) := by
  have hw : (colSetDims R C wf).window (ix1 e') 0 = e'.val := rfl
  have hs : (colSetDims R C wf).start (ix1 e') idx 0 = 0 := rfl
  rw [hw, hs]
  simp

/-- On the column axis a column entry's start plus window coordinate is the one index, read signed. -/
theorem colSet_axis1 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 1 + ((colSetDims R C wf).window (ix1 e') 1 : ℤ)
      = (idx (ix1 (0 : Fin 1))).toInt := by
  have hw : (colSetDims R C wf).window (ix1 e') 1 = 0 := rfl
  rw [hw]
  unfold ScatterDims.start
  rw [dif_pos (show (1 : Fin 2) ∈ (colSetDims R C wf).scatterDimsToOperandDims from List.mem_singleton.mpr rfl)]
  have hsi : (colSetDims R C wf).siIdx (ix1 e') ⟨List.idxOf (1 : Fin 2) (colSetDims R C wf).scatterDimsToOperandDims,
      List.idxOf_lt_length_iff.2 (List.mem_singleton.mpr rfl)⟩ = ix1 (0 : Fin 1) := by
    funext b; refine Fin.ext ?_
    match b with
    | ⟨0, _⟩ => rfl
  rw [hsi]
  simp

/-- The new column's entry `e'` lands on `(e, l)` exactly when `e' = e` and the index, read signed, is `l`. -/
theorem colSet_lands (wf : ScatterDims.WF ⟨2, ![R, C]⟩ ⟨1, ![1]⟩ ⟨1, ![R]⟩ [0] [1] [1] 0)
    (idx : IVec ⟨1, ![1]⟩ w) (e' e : Fin R) (l : Fin C) :
    (colSetDims R C wf).resultIdx? (ix1 e') idx = some (ix2 e l)
      ↔ e' = e ∧ (idx (ix1 (0 : Fin 1))).toInt = (l.val : ℤ) := by
  rw [resultIdx?_eq_some_iff]
  constructor
  · intro h
    have h0 : (e'.val : ℤ) = (e.val : ℤ) := (colSet_axis0 wf idx e').symm.trans (h 0)
    have h1 : (idx (ix1 (0 : Fin 1))).toInt = (l.val : ℤ) := (colSet_axis1 wf idx e').symm.trans (h 1)
    exact ⟨Fin.ext (by exact_mod_cast h0), h1⟩
  · rintro ⟨rfl, h1⟩ a
    match a with
    | ⟨0, _⟩ => exact colSet_axis0 wf idx e'
    | ⟨1, _⟩ => exact (colSet_axis1 wf idx e').trans h1

/-- Entry `(e, l)` after the column write: the new column's entry `e` when `l` is the column the index vector names, the
    old entry otherwise (a column index outside `[0, C)` writes nothing). -/
theorem colSet_apply {α : Type}
    (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (upd : (⟨1, ![R]⟩ : Shape).Idx → α)
    (e : Fin R) (l : Fin C) :
    Host.scatter (colSetDims R C wf) (fun _ b => b) x idx upd (ix2 e l)
      = if (idx (ix1 (0 : Fin 1))).toInt = (l.val : ℤ) then upd (ix1 e) else x (ix2 e l) := by
  by_cases hk : (idx (ix1 (0 : Fin 1))).toInt = (l.val : ℤ)
  · rw [if_pos hk]
    refine scatter_set_of_hit _ x idx upd (ix2 e l) (ix1 e) ((colSet_lands wf idx e e l).mpr ⟨rfl, hk⟩) fun j hj => ?_
    rw [eq_ix1 j] at hj ⊢
    exact congrArg (fun t => upd (ix1 t)) ((colSet_lands wf idx _ e l).mp hj).1
  · rw [if_neg hk]
    refine scatter_set_of_miss _ x idx upd (ix2 e l) fun j hj => ?_
    rw [eq_ix1 j] at hj
    exact hk ((colSet_lands wf idx _ e l).mp hj).2

end Cert.LibScatter

end
-- ==== Proof.LibGatherVec.lean ====
/-
  A gather of single entries of a vector, read at an index.

  `x[idx]` for a vector `x : [N]` and one index per result entry, `idx : [R, 1]`: the result is a vector `[R]` whose
  entry `e` is the vector's entry at the start index `idx[e, 0]`, read as a signed integer and clamped into
  `[0, N - 1]`. There is no offset axis (the one operand axis is collapsed) and no batching axis, so the operand index
  of result entry `e` is the clamped start alone.
-/
import Idealize.ShloMosaic.Lib.ValueIdx
import Idealize.ShloMosaic.PureOps.Ideal.Laws

noncomputable section

namespace Cert.LibGatherVec

open Idealize.ShloMosaic Idealize.ShloMosaic.ValueIdx

variable {N R w : ℕ}

/-- `x[idx]` of a vector `[N]` at start indices `[R, 1]`: single entries are taken, the operand's one axis collapsed. -/
abbrev vecGatherDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ :=
  ⟨[], [0], [], [], [0], 1, ![1], wf⟩

/-- Result entry `e` of the gather of a vector is the vector's entry `r`, `r` the start index `idx[e, 0]` read signed
    and clamped into `[0, N - 1]`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibGatherVec

end
-- ==== Proof.RefDinv.lean ====
/-
  The graph convolution's host program, read entry by entry: the edge words, the degrees and the edge weights.

  Every edge `e` carries a source word and a target word (the two joined index vectors of the program, kept as the opaque
  functions `sW` and `dW` of the edge). The program wraps a negative word by the table's length before every gather
  (six times in all), counts the edges landing on each node with an accumulating scatter of ones, takes the guarded
  inverse square root of the count, and gathers that factor at both wrapped words of every edge; the edge's weight is the
  product of the two. It does all of this twice, once per layer; the two copies are read the same way.
-/
import proofs.«130912_j54537494724630_2_alg».proof.Proof.RefRead
import proofs.«130912_j54537494724630_2_alg».proof.Proof.GcnSpec
import proofs.«130912_j54537494724630_2_alg».proof.Proof.LibScatter
import proofs.«130912_j54537494724630_2_alg».proof.Proof.LibGatherVec

noncomputable section

namespace Cert.ReferenceIdeal.RefValue

open Cert.ReferenceIdeal Cert.ReferenceIdeal.Gen Cert.ReferenceIdeal.ReadP Idealize.ShloMosaic Idealize.ShloMosaic.ValueIdx

variable (x1 : (⟨S2x800000, .i32⟩ : BufTy).Contents (Elt Ideal))

/-- The source word of edge `e`. -/
abbrev sW : Fin 850000 → BitVec 32 := fun e => val_main_v3 (F := Ideal) x1 (ix1 e)
/-- The target word of edge `e`. -/
abbrev dW : Fin 850000 → BitVec 32 := fun e => val_main_v6 (F := Ideal) x1 (ix1 e)

/-- The gather of a vector of 50000 entries at a column of 850000 start indices, read at entry `e`: the vector at the
    start index clamped into the table. -/
theorem gatherVec_at {α : Type} (x : S50000.Idx → α) (idx : IVec S850000x1 32) (e : Fin 850000) :
    Host.gather gather_S50000_S850000x1_S850000_n_0_n_n_0_1_1 x idx (ix1 e)
      = x (ix1 (Cert.Gcn.clampRow (idx (ix2 e (0 : Fin 1))))) :=
  Cert.LibGatherVec.vecGather_apply (by decide) Facts₀.gather_S50000_S850000x1_S850000_n_0_n_n_0_1_1_wf x idx e

/-! ## The first copy (layer 1) -/

theorem i9 (e : Fin 850000) : idx_main_v9 (ix2 e (0 : Fin 1)) = ix1 e :=
  funext fun a => Fin.ext (by match a with | ⟨0, _⟩ => rfl)

/-- Stage 10: the in-degree of node `n`, the float sum of a one per edge whose target word is `n`, from zero. -/
theorem deg10 (n : Fin 50000) : val_main_v10 (F := Ideal) x1 (ix1 n) = Cert.Gcn.degOf (dW x1) n := by
  unfold val_main_v10 Cert.Gcn.degOf
  refine (Cert.LibScatter.vecScatterAdd_apply (φ := .f32) Facts₀.scatter_S50000_S850000x1_S850000_n_0_0_1_wf _ _ _ n).trans ?_
  refine congrArg₂ (· + ·) ?_ (Finset.sum_congr rfl fun e _ => ?_)
  · rw [val_main_v8_apply, val_main_cst_0_apply] <;> rfl
  · rw [val_main_v9_apply, i9, val_main_v7_apply, val_main_cst_apply] <;> rfl

/-- Stage 14: the normalisation factor of node `n`, the inverse square root of a positive degree and zero elsewhere. -/
theorem dinv14 (n : Fin 50000) : val_main_v14 (F := Ideal) x1 (ix1 n) = Cert.Gcn.dinvOf (dW x1) n := by
  unfold Cert.Gcn.dinvOf Cert.Gcn.guardedRsqrt
  rw [val_main_v14_apply, val_main_v12_apply, val_main_v13_apply, deg10, val_main_v11_apply, val_main_cst_1_apply,
    val_main_call0_v1_apply, val_main_call0_v0_apply, val_main_cst_2_apply, Ideal.cmpf_def, Ideal.hostUnary_rsqrt_def,
    Ideal.ofBits_def]

/-- The wrapped source words, as stage 19 computes them. -/
theorem wrap19 (e : Fin 850000) :
    val_main_v19 (F := Ideal) x1 (ix1 e) = Cert.Gcn.wrapW (val_main_v3 (F := Ideal) x1 (ix1 e)) := by
  rw [val_main_v19_apply, val_main_v16_apply, val_main_v18_apply, val_main_v15_apply, val_main_v17_apply,
    val_main_c_apply, val_main_c_3_apply] <;> rfl

theorem i20 (e : Fin 850000) : idx_main_v20 (ix2 e (0 : Fin 1)) = ix1 e :=
  funext fun a => Fin.ext (by match a with | ⟨0, _⟩ => rfl)

/-- Stage 21: the source row's factor of edge `e`. -/
theorem v21_at (e : Fin 850000) :
    val_main_v21 (F := Ideal) x1 (ix1 e) = Cert.Gcn.dinvOf (dW x1) (Cert.Gcn.rowOf (sW x1 e)) := by
  unfold val_main_v21
  rw [gatherVec_at, val_main_v20_apply, i20, wrap19, dinv14] <;> rfl

/-- The wrapped target words, as stage 26 computes them. -/
theorem wrap26 (e : Fin 850000) :
    val_main_v26 (F := Ideal) x1 (ix1 e) = Cert.Gcn.wrapW (val_main_v6 (F := Ideal) x1 (ix1 e)) := by
  rw [val_main_v26_apply, val_main_v23_apply, val_main_v25_apply, val_main_v22_apply, val_main_v24_apply,
    val_main_c_4_apply, val_main_c_5_apply] <;> rfl

theorem i27 (e : Fin 850000) : idx_main_v27 (ix2 e (0 : Fin 1)) = ix1 e :=
  funext fun a => Fin.ext (by match a with | ⟨0, _⟩ => rfl)

/-- Stage 28: the target row's factor of edge `e`. -/
theorem v28_at (e : Fin 850000) :
    val_main_v28 (F := Ideal) x1 (ix1 e) = Cert.Gcn.dinvOf (dW x1) (Cert.Gcn.rowOf (dW x1 e)) := by
  unfold val_main_v28
  rw [gatherVec_at, val_main_v27_apply, i27, wrap26, dinv14] <;> rfl

/-- Stage 29: the weight of edge `e`, the product of its two rows' factors. -/
theorem w29 (e : Fin 850000) :
    val_main_v29 (F := Ideal) x1 (ix1 e)
      = Cert.Gcn.dinvOf (dW x1) (Cert.Gcn.rowOf (sW x1 e)) * Cert.Gcn.dinvOf (dW x1) (Cert.Gcn.rowOf (dW x1 e)) := by
  rw [val_main_v29_apply, v21_at, v28_at] <;> rfl

/-- The wrapped source words, as stage 35 computes them. -/
theorem wrap35 (e : Fin 850000) :
    val_main_v35 (F := Ideal) x1 (ix1 e) = Cert.Gcn.wrapW (val_main_v3 (F := Ideal) x1 (ix1 e)) := by
  rw [val_main_v35_apply, val_main_v32_apply, val_main_v34_apply, val_main_v31_apply, val_main_v33_apply,
    val_main_c_6_apply, val_main_c_7_apply] <;> rfl

/-! ## The second copy (layer 2) -/

theorem i50 (e : Fin 850000) : idx_main_v50 (ix2 e (0 : Fin 1)) = ix1 e :=
  funext fun a => Fin.ext (by match a with | ⟨0, _⟩ => rfl)

/-- Stage 51: the in-degree of node `n`, the float sum of a one per edge whose target word is `n`, from zero. -/
theorem deg51 (n : Fin 50000) : val_main_v51 (F := Ideal) x1 (ix1 n) = Cert.Gcn.degOf (dW x1) n := by
  unfold val_main_v51 Cert.Gcn.degOf
  refine (Cert.LibScatter.vecScatterAdd_apply (φ := .f32) Facts₀.scatter_S50000_S850000x1_S850000_n_0_0_1_wf _ _ _ n).trans ?_
  refine congrArg₂ (· + ·) ?_ (Finset.sum_congr rfl fun e _ => ?_)
  · rw [val_main_v49_apply, val_main_cst_10_apply] <;> rfl
  · rw [val_main_v50_apply, i50, val_main_v48_apply, val_main_cst_9_apply] <;> rfl

/-- Stage 55: the normalisation factor of node `n`, the inverse square root of a positive degree and zero elsewhere. -/
theorem dinv55 (n : Fin 50000) : val_main_v55 (F := Ideal) x1 (ix1 n) = Cert.Gcn.dinvOf (dW x1) n := by
  unfold Cert.Gcn.dinvOf Cert.Gcn.guardedRsqrt
  rw [val_main_v55_apply, val_main_v53_apply, val_main_v54_apply, deg51, val_main_v52_apply, val_main_cst_11_apply,
    val_main_call2_v1_apply, val_main_call2_v0_apply, val_main_cst_12_apply, Ideal.cmpf_def, Ideal.hostUnary_rsqrt_def,
    Ideal.ofBits_def]

/-- The wrapped source words, as stage 60 computes them. -/
theorem wrap60 (e : Fin 850000) :
    val_main_v60 (F := Ideal) x1 (ix1 e) = Cert.Gcn.wrapW (val_main_v3 (F := Ideal) x1 (ix1 e)) := by
  rw [val_main_v60_apply, val_main_v57_apply, val_main_v59_apply, val_main_v56_apply, val_main_v58_apply,
    val_main_c_13_apply, val_main_c_14_apply] <;> rfl

theorem i61 (e : Fin 850000) : idx_main_v61 (ix2 e (0 : Fin 1)) = ix1 e :=
  funext fun a => Fin.ext (by match a with | ⟨0, _⟩ => rfl)

/-- Stage 62: the source row's factor of edge `e`. -/
theorem v62_at (e : Fin 850000) :
    val_main_v62 (F := Ideal) x1 (ix1 e) = Cert.Gcn.dinvOf (dW x1) (Cert.Gcn.rowOf (sW x1 e)) := by
  unfold val_main_v62
  rw [gatherVec_at, val_main_v61_apply, i61, wrap60, dinv55] <;> rfl

/-- The wrapped target words, as stage 67 computes them. -/
theorem wrap67 (e : Fin 850000) :
    val_main_v67 (F := Ideal) x1 (ix1 e) = Cert.Gcn.wrapW (val_main_v6 (F := Ideal) x1 (ix1 e)) := by
  rw [val_main_v67_apply, val_main_v64_apply, val_main_v66_apply, val_main_v63_apply, val_main_v65_apply,
    val_main_c_15_apply, val_main_c_16_apply] <;> rfl

theorem i68 (e : Fin 850000) : idx_main_v68 (ix2 e (0 : Fin 1)) = ix1 e :=
  funext fun a => Fin.ext (by match a with | ⟨0, _⟩ => rfl)

/-- Stage 69: the target row's factor of edge `e`. -/
theorem v69_at (e : Fin 850000) :
    val_main_v69 (F := Ideal) x1 (ix1 e) = Cert.Gcn.dinvOf (dW x1) (Cert.Gcn.rowOf (dW x1 e)) := by
  unfold val_main_v69
  rw [gatherVec_at, val_main_v68_apply, i68, wrap67, dinv55] <;> rfl

/-- Stage 70: the weight of edge `e`, the product of its two rows' factors. -/
theorem w70 (e : Fin 850000) :
    val_main_v70 (F := Ideal) x1 (ix1 e)
      = Cert.Gcn.dinvOf (dW x1) (Cert.Gcn.rowOf (sW x1 e)) * Cert.Gcn.dinvOf (dW x1) (Cert.Gcn.rowOf (dW x1 e)) := by
  rw [val_main_v70_apply, v62_at, v69_at] <;> rfl

/-- The wrapped source words, as stage 76 computes them. -/
theorem wrap76 (e : Fin 850000) :
    val_main_v76 (F := Ideal) x1 (ix1 e) = Cert.Gcn.wrapW (val_main_v3 (F := Ideal) x1 (ix1 e)) := by
  rw [val_main_v76_apply, val_main_v73_apply, val_main_v75_apply, val_main_v72_apply, val_main_v74_apply,
    val_main_c_17_apply, val_main_c_18_apply] <;> rfl

end Cert.ReferenceIdeal.RefValue

end
-- ==== Proof.RefLayer1.lean ====
/-
  The graph convolution's host program, read entry by entry: the first layer and its positive part.

  The layer multiplies the node table by the weight matrix, gathers the product's row at every edge's wrapped source
  word, scales the row by the edge's weight, adds the scaled rows into a zero table at the edges' target words, and adds
  the bias to every row. Entry by entry that is the specification's layer with both normalisation factors inside the
  sum; the positive part follows.
-/
import proofs.«130912_j54537494724630_2_alg».proof.Proof.RefDinv

noncomputable section

namespace Cert.ReferenceIdeal.RefValue

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))

/-- The node table, by coordinates. -/
abbrev X0 : Fin 50000 → Fin 128 → EReal := fun r k => x0 (ix2 r k)
/-- The first layer's weight matrix, by coordinates. -/
abbrev W1 : Fin 128 → Fin 128 → EReal := fun k j => x2 (ix2 k j)
/-- The first layer's bias, by its coordinate. -/
abbrev B1 : Fin 128 → EReal := fun j => x3 (ix1 j)

/-- Stage 30: the matrix product of the node table and the weight matrix, entry by entry. -/
theorem mm30 (r : Fin 50000) (l : Fin 128) :
    val_main_v30 (F := Ideal) x0 x2 (ix2 r l) = Cert.Gcn.mm (X0 x0) (W1 x2) r l := by
  rw [val_main_v30_apply]
  unfold Cert.Gcn.mm
  refine Finset.sum_congr rfl fun k _ => ?_
  have hl : lidx_main_v30 (ix2 r l) k = ix2 r k :=
    funext fun a => Fin.ext (by match a with | ⟨0, _⟩ => rfl | ⟨1, _⟩ => rfl)
  have hr : ridx_main_v30 (ix2 r l) k = ix2 k l :=
    funext fun a => Fin.ext (by match a with | ⟨0, _⟩ => rfl | ⟨1, _⟩ => rfl)
  rw [hl, hr]

/-- The gather of rows of a table `[50000, 128]` at a column of 850000 start indices, read at entry `(e, l)`: the
    table's row at the start index clamped into the table. -/
theorem gatherRow128_at {α : Type} (x : S50000x128.Idx → α) (idx : IVec S850000x1 32) (e : Fin 850000) (l : Fin 128) :
    Host.gather gather_S50000x128_S850000x1_S850000x128_1_0_n_n_0_1_1128 x idx (ix2 e l)
      = x (ix2 (Cert.Gcn.clampRow (idx (ix2 e (0 : Fin 1)))) l) :=
  Cert.LibScatter.rowGather_apply (by decide) Facts₀.gather_S50000x128_S850000x1_S850000x128_1_0_n_n_0_1_1128_wf x idx e l

theorem i36 (e : Fin 850000) : idx_main_v36 (ix2 e (0 : Fin 1)) = ix1 e :=
  funext fun a => Fin.ext (by match a with | ⟨0, _⟩ => rfl)

/-- Stage 37: row `e` of the gathered table is the product's row at edge `e`'s source row. -/
theorem v37_at (e : Fin 850000) (l : Fin 128) :
    val_main_v37 (F := Ideal) x0 x1 x2 (ix2 e l) = Cert.Gcn.mm (X0 x0) (W1 x2) (Cert.Gcn.rowOf (sW x1 e)) l := by
  unfold val_main_v37
  rw [gatherRow128_at, val_main_v36_apply, i36, wrap35, mm30] <;> rfl

theorem i38 (e : Fin 850000) : idx_main_v38 (ix2 e (0 : Fin 1)) = ix1 e :=
  funext fun a => Fin.ext (by match a with | ⟨0, _⟩ => rfl)

theorem i39 (e : Fin 850000) (l : Fin 128) : idx_main_v39 (ix2 e l) = ix2 e (0 : Fin 1) :=
  funext fun a => Fin.ext (by match a with | ⟨0, _⟩ => rfl | ⟨1, _⟩ => rfl)

/-- Stage 39: the edge's weight along its row. -/
theorem v39_at (e : Fin 850000) (l : Fin 128) :
    val_main_v39 (F := Ideal) x1 (ix2 e l)
      = Cert.Gcn.dinvOf (dW x1) (Cert.Gcn.rowOf (sW x1 e)) * Cert.Gcn.dinvOf (dW x1) (Cert.Gcn.rowOf (dW x1 e)) := by
  rw [val_main_v39_apply, i39, val_main_v38_apply, i38, w29]

/-- Stage 40: the weighted row of edge `e`. -/
theorem v40_at (e : Fin 850000) (l : Fin 128) :
    val_main_v40 (F := Ideal) x0 x1 x2 (ix2 e l)
      = Cert.Gcn.mm (X0 x0) (W1 x2) (Cert.Gcn.rowOf (sW x1 e)) l
          * (Cert.Gcn.dinvOf (dW x1) (Cert.Gcn.rowOf (sW x1 e)) * Cert.Gcn.dinvOf (dW x1) (Cert.Gcn.rowOf (dW x1 e))) := by
  rw [val_main_v40_apply, v37_at, v39_at] <;> rfl

theorem i42 (e : Fin 850000) : idx_main_v42 (ix2 e (0 : Fin 1)) = ix1 e :=
  funext fun a => Fin.ext (by match a with | ⟨0, _⟩ => rfl)

/-- Stage 43: the accumulating scatter of the weighted rows at the target words, from the zero table. -/
theorem v43_at (n : Fin 50000) (l : Fin 128) :
    val_main_v43 (F := Ideal) x0 x1 x2 (ix2 n l)
      = Cert.Gcn.z + ∑ e : Fin 850000, if (dW x1 e).toInt = (n.val : ℤ)
          then Cert.Gcn.mm (X0 x0) (W1 x2) (Cert.Gcn.rowOf (sW x1 e)) l
            * (Cert.Gcn.dinvOf (dW x1) (Cert.Gcn.rowOf (sW x1 e)) * Cert.Gcn.dinvOf (dW x1) (Cert.Gcn.rowOf (dW x1 e))) else 0 := by
  unfold val_main_v43
  refine (Cert.LibScatter.rowScatterAdd_apply (φ := .f32) Facts₀.scatter_S50000x128_S850000x1_S850000x128_1_0_0_1_wf _ _ _ n l).trans ?_
  refine congrArg₂ (· + ·) ?_ (Finset.sum_congr rfl fun e _ => ?_)
  · rw [val_main_v41_apply, val_main_cst_8_apply] <;> rfl
  · rw [val_main_v42_apply, i42, v40_at] <;> rfl

theorem i45 (n : Fin 50000) (l : Fin 128) : idx_main_v44 (idx_main_v45 (ix2 n l)) = ix1 l :=
  funext fun a => Fin.ext (by match a with | ⟨0, _⟩ => rfl)

/-- Stage 45: the bias along every row. -/
theorem v45_at (n : Fin 50000) (l : Fin 128) : val_main_v45 (F := Ideal) x3 (ix2 n l) = x3 (ix1 l) := by
  rw [val_main_v45_apply, val_main_v44_apply, i45]

/-- Stage 46: the layer's result at `(n, l)` is the specification's layer with both factors inside the sum. -/
theorem layer_v46 (n : Fin 50000) (l : Fin 128) :
    val_main_v46 (F := Ideal) x0 x1 x2 x3 (ix2 n l)
      = Cert.Gcn.layerR (sW x1) (dW x1) (X0 x0) (W1 x2) (B1 x3) n l := by
  unfold Cert.Gcn.layerR
  rw [val_main_v46_apply, v43_at, v45_at] <;> rfl

/-- The first layer followed by the positive part, as the specification states it. -/
abbrev H1 : Fin 50000 → Fin 128 → EReal :=
  Cert.Gcn.reluF (Cert.Gcn.layerR (sW x1) (dW x1) (X0 x0) (W1 x2) (B1 x3))

/-- Stage 47: the positive part of the first layer. -/
theorem relu47 (n : Fin 50000) (l : Fin 128) :
    val_main_v47 (F := Ideal) x0 x1 x2 x3 (ix2 n l) = H1 x0 x1 x2 x3 n l := by
  unfold H1 Cert.Gcn.reluF
  rw [val_main_v47_apply, layer_v46, val_main_call1_v0_apply, val_main_call1_cst_apply] <;> rfl

end Cert.ReferenceIdeal.RefValue

end
-- ==== Proof.RefLayer2.lean ====
/-
  The graph convolution's host program, read entry by entry: the second layer.

  The same steps as the first layer over 64 columns, on the first layer's positive part: the matrix product, the gather
  of its rows at the edges' wrapped source words, the edge weights, the accumulating scatter at the target words, the
  bias.
-/
import proofs.«130912_j54537494724630_2_alg».proof.Proof.RefLayer1

noncomputable section

namespace Cert.ReferenceIdeal.RefValue

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-- The second layer's weight matrix, by coordinates. -/
abbrev W2 : Fin 128 → Fin 64 → EReal := fun k j => x4 (ix2 k j)
/-- The second layer's bias, by its coordinate. -/
abbrev B2 : Fin 64 → EReal := fun j => x5 (ix1 j)

/-- Stage 71: the matrix product of the first layer's positive part and the second weight matrix, entry by entry. -/
theorem mm71 (r : Fin 50000) (l : Fin 64) :
    val_main_v71 (F := Ideal) x0 x1 x2 x3 x4 (ix2 r l) = Cert.Gcn.mm (H1 x0 x1 x2 x3) (W2 x4) r l := by
  rw [val_main_v71_apply]
  unfold Cert.Gcn.mm
  refine Finset.sum_congr rfl fun k _ => ?_
  have hl : lidx_main_v71 (ix2 r l) k = ix2 r k :=
    funext fun a => Fin.ext (by match a with | ⟨0, _⟩ => rfl | ⟨1, _⟩ => rfl)
  have hr : ridx_main_v71 (ix2 r l) k = ix2 k l :=
    funext fun a => Fin.ext (by match a with | ⟨0, _⟩ => rfl | ⟨1, _⟩ => rfl)
  rw [hl, hr, relu47]

/-- The gather of rows of a table `[50000, 64]` at a column of 850000 start indices, read at entry `(e, l)`: the
    table's row at the start index clamped into the table. -/
theorem gatherRow64_at {α : Type} (x : S50000x64.Idx → α) (idx : IVec S850000x1 32) (e : Fin 850000) (l : Fin 64) :
    Host.gather gather_S50000x64_S850000x1_S850000x64_1_0_n_n_0_1_164 x idx (ix2 e l)
      = x (ix2 (Cert.Gcn.clampRow (idx (ix2 e (0 : Fin 1)))) l) :=
  Cert.LibScatter.rowGather_apply (by decide) Facts₀.gather_S50000x64_S850000x1_S850000x64_1_0_n_n_0_1_164_wf x idx e l

theorem i77 (e : Fin 850000) : idx_main_v77 (ix2 e (0 : Fin 1)) = ix1 e :=
  funext fun a => Fin.ext (by match a with | ⟨0, _⟩ => rfl)

/-- Stage 78: row `e` of the gathered table is the product's row at edge `e`'s source row. -/
theorem v78_at (e : Fin 850000) (l : Fin 64) :
    val_main_v78 (F := Ideal) x0 x1 x2 x3 x4 (ix2 e l) = Cert.Gcn.mm (H1 x0 x1 x2 x3) (W2 x4) (Cert.Gcn.rowOf (sW x1 e)) l := by
  unfold val_main_v78
  rw [gatherRow64_at, val_main_v77_apply, i77, wrap76, mm71] <;> rfl

theorem i79 (e : Fin 850000) : idx_main_v79 (ix2 e (0 : Fin 1)) = ix1 e :=
  funext fun a => Fin.ext (by match a with | ⟨0, _⟩ => rfl)

theorem i80 (e : Fin 850000) (l : Fin 64) : idx_main_v80 (ix2 e l) = ix2 e (0 : Fin 1) :=
  funext fun a => Fin.ext (by match a with | ⟨0, _⟩ => rfl | ⟨1, _⟩ => rfl)

/-- Stage 80: the edge's weight along its row. -/
theorem v80_at (e : Fin 850000) (l : Fin 64) :
    val_main_v80 (F := Ideal) x1 (ix2 e l)
      = Cert.Gcn.dinvOf (dW x1) (Cert.Gcn.rowOf (sW x1 e)) * Cert.Gcn.dinvOf (dW x1) (Cert.Gcn.rowOf (dW x1 e)) := by
  rw [val_main_v80_apply, i80, val_main_v79_apply, i79, w70]

/-- Stage 81: the weighted row of edge `e`. -/
theorem v81_at (e : Fin 850000) (l : Fin 64) :
    val_main_v81 (F := Ideal) x0 x1 x2 x3 x4 (ix2 e l)
      = Cert.Gcn.mm (H1 x0 x1 x2 x3) (W2 x4) (Cert.Gcn.rowOf (sW x1 e)) l
          * (Cert.Gcn.dinvOf (dW x1) (Cert.Gcn.rowOf (sW x1 e)) * Cert.Gcn.dinvOf (dW x1) (Cert.Gcn.rowOf (dW x1 e))) := by
  rw [val_main_v81_apply, v78_at, v80_at] <;> rfl

theorem i83 (e : Fin 850000) : idx_main_v83 (ix2 e (0 : Fin 1)) = ix1 e :=
  funext fun a => Fin.ext (by match a with | ⟨0, _⟩ => rfl)

/-- Stage 84: the accumulating scatter of the weighted rows at the target words, from the zero table. -/
theorem v84_at (n : Fin 50000) (l : Fin 64) :
    val_main_v84 (F := Ideal) x0 x1 x2 x3 x4 (ix2 n l)
      = Cert.Gcn.z + ∑ e : Fin 850000, if (dW x1 e).toInt = (n.val : ℤ)
          then Cert.Gcn.mm (H1 x0 x1 x2 x3) (W2 x4) (Cert.Gcn.rowOf (sW x1 e)) l
            * (Cert.Gcn.dinvOf (dW x1) (Cert.Gcn.rowOf (sW x1 e)) * Cert.Gcn.dinvOf (dW x1) (Cert.Gcn.rowOf (dW x1 e))) else 0 := by
  unfold val_main_v84
  refine (Cert.LibScatter.rowScatterAdd_apply (φ := .f32) Facts₀.scatter_S50000x64_S850000x1_S850000x64_1_0_0_1_wf _ _ _ n l).trans ?_
  refine congrArg₂ (· + ·) ?_ (Finset.sum_congr rfl fun e _ => ?_)
  · rw [val_main_v82_apply, val_main_cst_19_apply] <;> rfl
  · rw [val_main_v83_apply, i83, v81_at] <;> rfl

theorem i86 (n : Fin 50000) (l : Fin 64) : idx_main_v85 (idx_main_v86 (ix2 n l)) = ix1 l :=
  funext fun a => Fin.ext (by match a with | ⟨0, _⟩ => rfl)

/-- Stage 86: the bias along every row. -/
theorem v86_at (n : Fin 50000) (l : Fin 64) : val_main_v86 (F := Ideal) x5 (ix2 n l) = x5 (ix1 l) := by
  rw [val_main_v86_apply, val_main_v85_apply, i86]

/-- Stage 87: the layer's result at `(n, l)` is the specification's layer with both factors inside the sum. -/
theorem layer_v87 (n : Fin 50000) (l : Fin 64) :
    val_main_v87 (F := Ideal) x0 x1 x2 x3 x4 x5 (ix2 n l)
      = Cert.Gcn.layerR (sW x1) (dW x1) (H1 x0 x1 x2 x3) (W2 x4) (B2 x5) n l := by
  unfold Cert.Gcn.layerR
  rw [val_main_v87_apply, v84_at, v86_at] <;> rfl

end Cert.ReferenceIdeal.RefValue

end
-- ==== Proof.RefValue.lean ====
/-
  The graph convolution's host program computes the specification's two-layer network, entry by entry.

  Over the six argument arrays, entry `(n, l)` of the program's last stage is the pure specification `Cert.Gcn.outR` of the
  source and target words (the program's two joined index vectors, as functions of the edge), the node table, and the two
  layers' weights and biases read by coordinates.
-/
import proofs.«130912_j54537494724630_2_alg».proof.Proof.RefLayer2

noncomputable section

namespace Cert.ReferenceIdeal.RefValue

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-- The program's result at `(n, l)` is the specification with both normalisation factors inside the sums. -/
theorem ref_value (n : Fin 50000) (l : Fin 64) :
    ReadP.val_main_v87 (F := Ideal) x0 x1 x2 x3 x4 x5 (ix2 n l)
      = Cert.Gcn.outR (fun e => ReadP.val_main_v3 (F := Ideal) x1 (ix1 e)) (fun e => ReadP.val_main_v6 (F := Ideal) x1 (ix1 e))
          (fun r k => x0 (ix2 r k)) (fun k j => x2 (ix2 k j)) (fun j => x3 (ix1 j)) (fun k j => x4 (ix2 k j)) (fun j => x5 (ix1 j)) n l :=
  layer_v87 x0 x1 x2 x3 x4 x5 n l

end Cert.ReferenceIdeal.RefValue

end
-- ==== Proof.LibFoldCat.lean ====
/-
  Reading a fold of host operations at a buffer in one simplification pass, through two-array concatenations.

  Each operation's result at its own buffer is its function of its operands, and at any other buffer what was there;
  a concatenation of two arrays is first rewritten as a function of the two arrays (`Cert.LibConcat.concatenate_pair`),
  since the list a concatenation takes is not rewritten in place. The pass is the library's one-pass reading of a fold
  with that one equation added, so it also covers reshapes and operations of four operands.
-/
import Idealize.ShloMosaic.Lib.StableHlo.Run
import proofs.«130912_j54537494724630_2_alg».proof.Proof.LibConcat

namespace Cert.LibFoldCat

open Idealize.ShloMosaic Idealize.ShloMosaic.StableHlo

/-- Reads a fold of host operations at a buffer, going through two-array concatenations. -/
macro "fold_read" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcat.concatenate_pair]))

end Cert.LibFoldCat
-- ==== Proof.Joint.lean ====
/-
  The last joint of the certificate: the two programs' results are one array.

  The kernel program's run ends with its result array at the contents the last segment boundary gives it; the
  reference's run ends with its result at the last stage of its operations.  Given that the first is the two-layer graph
  convolution in the arrangement with the target's factor outside the sums (`Cert.Gcn.outK`) and the second the same in
  the arrangement with both factors inside (`Cert.Gcn.outR`), each over the source and target words its own program
  builds from the second argument, the two results are equal entry by entry: the two arrangements agree
  (`Cert.Gcn.outK_eq_outR`), and the two programs build the same words — a reshaped row of the second argument followed
  by the numbers `0 … 49999` — by the same operations, written over shapes and side conditions that are different
  constants of the two programs but the same literals.
-/
import proofs.«130912_j54537494724630_2_alg».proof.Defs
import proofs.«130912_j54537494724630_2_alg».proof.Proof.KRun
import proofs.«130912_j54537494724630_2_alg».proof.Proof.RefRead
import proofs.«130912_j54537494724630_2_alg».proof.Proof.GcnSpec
import proofs.«130912_j54537494724630_2_alg».proof.Proof.RefValue
import proofs.«130912_j54537494724630_2_alg».proof.Proof.LibFoldCat
import proofs.«130912_j54537494724630_2_alg».proof.Proof.Gen.KernelIdeal.Frame
import proofs.«130912_j54537494724630_2_alg».proof.Proof.Gen.Kernel.Frame
import proofs.«130912_j54537494724630_2_alg».proof.Proof.Gen.Pre_finite_inputs

set_option maxRecDepth 16384

noncomputable section

namespace Cert.Proof.Joint

open Idealize.ShloMosaic Idealize.ShloMosaic.TcCoe Idealize.SL.Sem Idealize.ShloMosaic.StableHlo
open Idealize.ShloMosaic.ValueIdx Cert.Gcn
open Cert.KernelIdeal Cert.KernelIdeal.Gen

/-! ## The two theorems this joint takes -/

/-- The kernel program's result is the convolution with the target's factor outside the sums, over the words its
    first stretch of host operations builds. -/
abbrev KernelValue : Prop :=
  ∀ (m : (ℓ : Loc nD τ sig) → Buf (Elt Ideal) ℓ) (ρ : Dev nD → PrngReg) (c : Dev nD) (n : Fin 50000) (l : Fin 64),
    W9 m ρ c (Proc.devRef .tc main_v41) (ix2 n l)
      = outK (fun e => W1 m ρ c (Proc.devRef .tc main_v3) (ix1 e)) (fun e => W1 m ρ c (Proc.devRef .tc main_v6) (ix1 e))
          (fun r k => m ((c.tc : Thread nD τ).loc main_arg0) (ix2 r k)) (fun k j => m ((c.tc : Thread nD τ).loc main_arg2) (ix2 k j))
          (fun j => m ((c.tc : Thread nD τ).loc main_arg3) (ix1 j)) (fun k j => m ((c.tc : Thread nD τ).loc main_arg4) (ix2 k j))
          (fun j => m ((c.tc : Thread nD τ).loc main_arg5) (ix1 j)) n l

/-- The reference's last stage is the convolution with both factors inside the sums, over the words its own first
    stages build. -/
abbrev ReferenceValue : Prop :=
  ∀ (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal)) (n : Fin 50000) (l : Fin 64),
    Cert.ReferenceIdeal.ReadP.val_main_v87 (F := Ideal) x0 x1 x2 x3 x4 x5 (ix2 n l)
      = outR (fun e => Cert.ReferenceIdeal.ReadP.val_main_v3 (F := Ideal) x1 (ix1 e))
          (fun e => Cert.ReferenceIdeal.ReadP.val_main_v6 (F := Ideal) x1 (ix1 e))
          (fun r k => x0 (ix2 r k)) (fun k j => x2 (ix2 k j)) (fun j => x3 (ix1 j)) (fun k j => x4 (ix2 k j))
          (fun j => x5 (ix1 j)) n l

/-! ## The two programs build the same words -/

section
variable (m : (ℓ : Loc nD τ sig) → Buf (Elt Ideal) ℓ) (ρ : Dev nD → PrngReg) (c : Dev nD)

/-- The source words: the kernel program's first stretch leaves in their buffer what the reference's first stages
    compute from the second argument. -/
theorem src_words :
    W1 m ρ c (Proc.devRef .tc main_v3)
      = Cert.ReferenceIdeal.ReadP.val_main_v3 (F := Ideal) (m ((c.tc : Thread nD τ).loc main_arg1)) := by
  dsimp only [W1, hostOps0]
  fold_read
  unfold Cert.ReferenceIdeal.ReadP.val_main_v3 Cert.ReferenceIdeal.ReadP.val_main_v2 Cert.ReferenceIdeal.ReadP.val_main_v1
    Cert.ReferenceIdeal.ReadP.val_main_v0
  rfl

/-- The target words likewise. -/
theorem dst_words :
    W1 m ρ c (Proc.devRef .tc main_v6)
      = Cert.ReferenceIdeal.ReadP.val_main_v6 (F := Ideal) (m ((c.tc : Thread nD τ).loc main_arg1)) := by
  dsimp only [W1, hostOps0]
  fold_read
  unfold Cert.ReferenceIdeal.ReadP.val_main_v6 Cert.ReferenceIdeal.ReadP.val_main_v5 Cert.ReferenceIdeal.ReadP.val_main_v4
    Cert.ReferenceIdeal.ReadP.val_main_v0
  rfl

/-! ## The two results are one array -/

/-- From memories that agree on the six arguments, the kernel program's result array and the reference's result
    term are equal. -/
theorem result_eq (hK : KernelValue) (hR : ReferenceValue)
    (m' : (ℓ : Loc Cert.ReferenceIdeal.nD Cert.ReferenceIdeal.τ Cert.ReferenceIdeal.sig) → Buf (Elt Ideal) ℓ)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5)) :
    W9 m ρ c (Proc.devRef .tc main_v41) = Cert.ReferenceIdeal.ValueP.res_main_v87 m' c := by
  rw [Cert.ReferenceIdeal.ReadP.val_main_v87_eq, a0, a1, a2, a3, a4, a5]
  refine funext fun (i : (⟨2, ![50000, 64]⟩ : Shape).Idx) => ?_
  obtain ⟨n, l, rfl⟩ : ∃ (n : Fin 50000) (l : Fin 64), i = ix2 n l := ⟨c0 i, c1 i, (ix2_c0_c1 i).symm⟩
  refine (hK m ρ c n l).trans ?_
  refine Eq.trans ?_ (hR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) n l).symm
  rw [outK_eq_outR, src_words m ρ c, dst_words m ρ c]

end

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run, from memories that agree on the arguments, to the same result array: the kernel program's
    run names its result, the reference's run ends at the same array by `result_eq`. -/
theorem algebraic_of_values (hK : KernelValue) (hR : ReferenceValue) : Cert.algebraic_KernelIdeal_ReferenceIdeal := by
  intro m ρ m' ρ' _ hagree
  refine ⟨fun c => W9 m ρ c (Proc.devRef .tc main_v41), Cert.KernelIdeal.Run.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  exact (result_eq m ρ c hK hR m' a0 a1 a2 a3 a4 a5).symm

/-- The same with the reference's value theorem supplied: only the kernel program's remains to be given. -/
theorem algebraic (hK : KernelValue) : Cert.algebraic_KernelIdeal_ReferenceIdeal :=
  algebraic_of_values hK Cert.ReferenceIdeal.RefValue.ref_value

end Cert.Proof.Joint

end
-- ==== Proof.KChain.lean ====
/-
  The idealized kernel program between its four regions: which buffers every stretch of host operations and every region
  leaves alone. The index words (the source and target columns), the normalisation column and the argument arrays are
  written once, before the first region, and only read afterwards: a host stretch that does not write a buffer leaves it
  as it was, a region leaves every buffer that is not one of its arrays as it was, and an array it only reads through
  an input window ends as it was entered.
-/
import proofs.«130912_j54537494724630_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A stretch of host operations leaves a buffer none of them writes as it was. -/
macro "not_written" : tactic => `(tactic| (
  refine StableHlo.after_of_forall_not_mem _ _ (List.forall_iff_forall_mem.mp ?_)
  simp only [hostOps0, hostOps0_1, hostOps0_2, hostOps1, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Before the first region -/

theorem W3_arg0 : W3 m ρ c (Proc.devRef .tc main_arg0) = m ((c : Thread nD τ).loc main_arg0) :=
  calc W3 m ρ c (Proc.devRef .tc main_arg0)
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl

theorem W3_arg2 : W3 m ρ c (Proc.devRef .tc main_arg2) = m ((c : Thread nD τ).loc main_arg2) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = m ((c : Thread nD τ).loc main_arg2) := rfl

theorem W3_arg3 : W3 m ρ c (Proc.devRef .tc main_arg3) = m ((c : Thread nD τ).loc main_arg3) :=
  calc W3 m ρ c (Proc.devRef .tc main_arg3)
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

theorem W3_arg4 : W3 m ρ c (Proc.devRef .tc main_arg4) = m ((c : Thread nD τ).loc main_arg4) :=
  calc W3 m ρ c (Proc.devRef .tc main_arg4)
    _ = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl

theorem W3_arg5 : W3 m ρ c (Proc.devRef .tc main_arg5) = m ((c : Thread nD τ).loc main_arg5) :=
  calc W3 m ρ c (Proc.devRef .tc main_arg5)
    _ = W2 m ρ c (Proc.devRef .tc main_arg5) := by not_written
    _ = W1 m ρ c (Proc.devRef .tc main_arg5) := by not_written
    _ = W0 m ρ c (Proc.devRef .tc main_arg5) := by not_written
    _ = m ((c : Thread nD τ).loc main_arg5) := rfl

/-- The source words, written by the first stretch, are still there at the first region. -/
theorem W3_v3 : W3 m ρ c (Proc.devRef .tc main_v3) = W1 m ρ c (Proc.devRef .tc main_v3) :=
  calc W3 m ρ c (Proc.devRef .tc main_v3)
    _ = W2 m ρ c (Proc.devRef .tc main_v3) := by not_written
    _ = W1 m ρ c (Proc.devRef .tc main_v3) := by not_written

/-- The target words likewise. -/
theorem W3_v6 : W3 m ρ c (Proc.devRef .tc main_v6) = W1 m ρ c (Proc.devRef .tc main_v6) :=
  calc W3 m ρ c (Proc.devRef .tc main_v6)
    _ = W2 m ρ c (Proc.devRef .tc main_v6) := by not_written
    _ = W1 m ρ c (Proc.devRef .tc main_v6) := by not_written

/-! ## Through region 0 and the second stretch -/

theorem W4_v3 : W4 m ρ c (Proc.devRef .tc main_v3) = W3 m ρ c (Proc.devRef .tc main_v3) := W4_of_ne m ρ c main_v3 (by decide)
theorem W4_v6 : W4 m ρ c (Proc.devRef .tc main_v6) = W3 m ρ c (Proc.devRef .tc main_v6) := W4_of_ne m ρ c main_v6 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)
/-- The normalisation column is region 0's input window 2: it ends as entered. -/
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))

theorem W5_v15 : W5 m ρ c (Proc.devRef .tc main_v15) = W4 m ρ c (Proc.devRef .tc main_v15) := by not_written
theorem W5_v3 : W5 m ρ c (Proc.devRef .tc main_v3) = W4 m ρ c (Proc.devRef .tc main_v3) := by not_written
theorem W5_v6 : W5 m ρ c (Proc.devRef .tc main_v6) = W4 m ρ c (Proc.devRef .tc main_v6) := by not_written
theorem W5_arg4 : W5 m ρ c (Proc.devRef .tc main_arg4) = W4 m ρ c (Proc.devRef .tc main_arg4) := by not_written
theorem W5_arg5 : W5 m ρ c (Proc.devRef .tc main_arg5) = W4 m ρ c (Proc.devRef .tc main_arg5) := by not_written

/-! ## Through regions 1 and 2 and the third stretch -/

theorem W6_v3 : W6 m ρ c (Proc.devRef .tc main_v3) = W5 m ρ c (Proc.devRef .tc main_v3) := W6_of_ne m ρ c main_v3 (by decide)
theorem W6_v6 : W6 m ρ c (Proc.devRef .tc main_v6) = W5 m ρ c (Proc.devRef .tc main_v6) := W6_of_ne m ρ c main_v6 (by decide)
theorem W6_arg4 : W6 m ρ c (Proc.devRef .tc main_arg4) = W5 m ρ c (Proc.devRef .tc main_arg4) := W6_of_ne m ρ c main_arg4 (by decide)
theorem W6_arg5 : W6 m ρ c (Proc.devRef .tc main_arg5) = W5 m ρ c (Proc.devRef .tc main_arg5) := W6_of_ne m ρ c main_arg5 (by decide)
/-- The normalisation column is region 1's input window 1. -/
theorem W6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))

theorem W7_v3 : W7 m ρ c (Proc.devRef .tc main_v3) = W6 m ρ c (Proc.devRef .tc main_v3) := W7_of_ne m ρ c main_v3 (by decide)
theorem W7_v6 : W7 m ρ c (Proc.devRef .tc main_v6) = W6 m ρ c (Proc.devRef .tc main_v6) := W7_of_ne m ρ c main_v6 (by decide)
theorem W7_arg5 : W7 m ρ c (Proc.devRef .tc main_arg5) = W6 m ρ c (Proc.devRef .tc main_arg5) := W7_of_ne m ρ c main_arg5 (by decide)
/-- The normalisation column is region 2's input window 2. -/
theorem W7_v15 : W7 m ρ c (Proc.devRef .tc main_v15) = W6 m ρ c (Proc.devRef .tc main_v15) :=
  (W7_arr m ρ c 2).trans (((dat2 (V6 m ρ) c).arrAt_in 2 rfl _).trans (A_eq2 (V6 m ρ) c 2))
theorem W8_v15 : W8 m ρ c (Proc.devRef .tc main_v15) = W7 m ρ c (Proc.devRef .tc main_v15) := by not_written

/-! ## Each buffer where it is read, back to where it was written -/

theorem W4_v3' : W4 m ρ c (Proc.devRef .tc main_v3) = W1 m ρ c (Proc.devRef .tc main_v3) := (W4_v3 m ρ c).trans (W3_v3 m ρ c)
theorem W4_v6' : W4 m ρ c (Proc.devRef .tc main_v6) = W1 m ρ c (Proc.devRef .tc main_v6) := (W4_v6 m ρ c).trans (W3_v6 m ρ c)
theorem W7_v3' : W7 m ρ c (Proc.devRef .tc main_v3) = W1 m ρ c (Proc.devRef .tc main_v3) :=
  (W7_v3 m ρ c).trans ((W6_v3 m ρ c).trans ((W5_v3 m ρ c).trans (W4_v3' m ρ c)))
theorem W7_v6' : W7 m ρ c (Proc.devRef .tc main_v6) = W1 m ρ c (Proc.devRef .tc main_v6) :=
  (W7_v6 m ρ c).trans ((W6_v6 m ρ c).trans ((W5_v6 m ρ c).trans (W4_v6' m ρ c)))
theorem W5_v15' : W5 m ρ c (Proc.devRef .tc main_v15) = W3 m ρ c (Proc.devRef .tc main_v15) := (W5_v15 m ρ c).trans (W4_v15 m ρ c)
theorem W6_v15' : W6 m ρ c (Proc.devRef .tc main_v15) = W3 m ρ c (Proc.devRef .tc main_v15) := (W6_v15 m ρ c).trans (W5_v15' m ρ c)
theorem W8_v15' : W8 m ρ c (Proc.devRef .tc main_v15) = W3 m ρ c (Proc.devRef .tc main_v15) :=
  (W8_v15 m ρ c).trans ((W7_v15 m ρ c).trans (W6_v15' m ρ c))
theorem W4_arg3' : W4 m ρ c (Proc.devRef .tc main_arg3) = m ((c : Thread nD τ).loc main_arg3) := (W4_arg3 m ρ c).trans (W3_arg3 m ρ c)
theorem W6_arg4' : W6 m ρ c (Proc.devRef .tc main_arg4) = m ((c : Thread nD τ).loc main_arg4) :=
  (W6_arg4 m ρ c).trans ((W5_arg4 m ρ c).trans ((W4_arg4 m ρ c).trans (W3_arg4 m ρ c)))
theorem W7_arg5' : W7 m ρ c (Proc.devRef .tc main_arg5) = m ((c : Thread nD τ).loc main_arg5) :=
  (W7_arg5 m ρ c).trans ((W6_arg5 m ρ c).trans ((W5_arg5 m ρ c).trans ((W4_arg5 m ρ c).trans (W3_arg5 m ρ c))))

end Cert.KernelIdeal.Chain

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.GcnOps.lean ====
/-
  The host-side steps of the graph convolution read at an index, for any dimension records of the shapes in question:
  the wrapped index column, the in-degree and the normalisation vector (and its column form), and the aggregation
  "gather the rows a source column names, add them up at the rows a target column names" as a sum over the edges.
-/
import proofs.«130912_j54537494724630_2_alg».proof.Proof.GcnSpec
import proofs.«130912_j54537494724630_2_alg».proof.Proof.LibScatter
import proofs.«130912_j54537494724630_2_alg».proof.Proof.LibKeepdims
import Idealize.ShloMosaic.Lib.Pipeline.Value
import Idealize.ShloMosaic.Lib.ValueLayout

noncomputable section

namespace Cert.GcnOps

open Idealize.ShloMosaic Idealize.ShloMosaic.ValueIdx Cert.Gcn Cert.LibScatter

/-! ## Broadcasts of a scalar and of a vector to a column -/

/-- A scalar broadcast to any shape reads the scalar everywhere. -/
theorem bcastScalar_apply {α : Type} {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply _ h x j ix0 (fun a => a.elim0)

/-- A vector `[R]` broadcast to one column `[R, 1]` reads, at `(e, 0)`, the vector at `e`. -/
theorem bcastCol_apply {α : Type} {R : ℕ} (hR : R ≠ 1)
    (h : (⟨1, ![R]⟩ : Shape).BroadcastsInDim ⟨2, ![R, 1]⟩ (![0] : Fin 1 → Fin 2))
    (x : (⟨1, ![R]⟩ : Shape).Idx → α) (e : Fin R) (u : Fin 1) :
    broadcastInDim ⟨2, ![R, 1]⟩ ![0] h x (ix2 e u) = x (ix1 e) :=
  broadcastInDim_apply _ h x (ix2 e u) (ix1 e) (fun a => match a with
    | ⟨0, _⟩ => by show e.val = if R = 1 then 0 else e.val; rw [if_neg hR])

/-- A vector `[n]` cast to one row `[1, n]` reads, at `(0, j)`, the vector at `j`. -/
theorem shapeCast_n_1n_apply {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-! ## The wrapped index column -/

/-- The wrapped index column at `(e, 0)` is the wrapped word. -/
theorem wrapCol_apply
    (hcol : (⟨1, ![850000]⟩ : Shape).BroadcastsInDim ⟨2, ![850000, 1]⟩ (![0] : Fin 1 → Fin 2))
    (hsc : (⟨0, ![]⟩ : Shape).BroadcastsInDim ⟨1, ![850000]⟩ (![] : Fin 0 → Fin 1))
    (sv : IVec ⟨1, ![850000]⟩ 32) (e : Fin 850000) (u : Fin 1) :
    broadcastInDim ⟨2, ![850000, 1]⟩ ![0] hcol
        (select (cmpi .slt sv (broadcastInDim ⟨1, ![850000]⟩ ![] hsc (constantI ⟨0, ![]⟩ 32 0#32)))
          (addi sv (broadcastInDim ⟨1, ![850000]⟩ ![] hsc (constantI ⟨0, ![]⟩ 32 50000#32))) sv) (ix2 e u)
      = wrapW (sv (ix1 e)) := by
  rw [bcastCol_apply (by decide)]
  show Scalar.select (IntOp.cmpi .slt (sv (ix1 e)) (broadcastInDim ⟨1, ![850000]⟩ ![] hsc (constantI ⟨0, ![]⟩ 32 0#32) (ix1 e)))
      (IntOp.addi (sv (ix1 e)) (broadcastInDim ⟨1, ![850000]⟩ ![] hsc (constantI ⟨0, ![]⟩ 32 50000#32) (ix1 e))) (sv (ix1 e)) = _
  rw [bcastScalar_apply, bcastScalar_apply]
  rfl

/-! ## The in-degree and the normalisation vector -/

/-- `where(d > 0, rsqrt(d), 0)` of any vector `d`, read at an index where the zero vector reads zero. -/
theorem guarded_apply {s : Shape} (D zv : FVec Ideal s .f32) (i : s.Idx) (hz : zv i = z) :
    select (cmpf (F := Ideal) .ogt D zv) (Host.rsqrt (F := Ideal) D) zv i = guardedRsqrt (D i) := by
  show Scalar.select (Ideal.cmp .ogt (D i) (zv i)) (Ideal.rsqrt (D i)) (zv i) = _
  rw [hz]
  rfl

section Deg
variable (dSv : ScatterDims ⟨1, ![50000]⟩ ⟨2, ![850000, 1]⟩ ⟨1, ![850000]⟩)
  (wf : ScatterDims.WF ⟨1, ![50000]⟩ ⟨2, ![850000, 1]⟩ ⟨1, ![850000]⟩ [] [0] [0] 1)
  (hdSv : dSv = vecScatterDims 50000 850000 wf)
  (hz50 : (⟨0, ![]⟩ : Shape).BroadcastsInDim ⟨1, ![50000]⟩ (![] : Fin 0 → Fin 1))
  (h1 : (⟨0, ![]⟩ : Shape).BroadcastsInDim ⟨1, ![850000]⟩ (![] : Fin 0 → Fin 1))
  (hcol : (⟨1, ![850000]⟩ : Shape).BroadcastsInDim ⟨2, ![850000, 1]⟩ (![0] : Fin 1 → Fin 2))
  (dv : IVec ⟨1, ![850000]⟩ 32)

/-- The in-degree vector: ones scattered onto zeros at the target column. -/
def degVec : FVec Ideal ⟨1, ![50000]⟩ .f32 :=
  Host.scatterAdd (F := Ideal) dSv (broadcastInDim ⟨1, ![50000]⟩ ![] hz50 (constant (F := Ideal) ⟨0, ![]⟩ .f32 0x00000000#32))
    (broadcastInDim ⟨2, ![850000, 1]⟩ ![0] hcol dv)
    (broadcastInDim ⟨1, ![850000]⟩ ![] h1 (constant (F := Ideal) ⟨0, ![]⟩ .f32 0x3F800000#32))

include hdSv in
theorem degVec_apply (n : Fin 50000) :
    degVec dSv hz50 h1 hcol dv (ix1 n) = degOf (fun e => dv (ix1 e)) n := by
  unfold degVec degOf
  subst hdSv
  rw [vecScatterAdd_apply, bcastScalar_apply]
  refine congrArg (z + ·) (Finset.sum_congr rfl fun e _ => ?_)
  rw [bcastCol_apply (by decide), bcastScalar_apply]
  rfl

include hdSv in
/-- `where(deg > 0, rsqrt(deg), 0)` of the in-degree vector, entry `n`. -/
theorem dinvVec_apply (zv : FVec Ideal ⟨1, ![50000]⟩ .f32) (hzv : ∀ i, zv i = z) (n : Fin 50000) :
    select (cmpf (F := Ideal) .ogt (degVec dSv hz50 h1 hcol dv) zv) (Host.rsqrt (F := Ideal) (degVec dSv hz50 h1 hcol dv)) zv (ix1 n)
      = dinvOf (fun e => dv (ix1 e)) n :=
  (guarded_apply _ zv (ix1 n) (hzv _)).trans (congrArg guardedRsqrt (degVec_apply dSv wf hdSv hz50 h1 hcol dv n))

end Deg

/-! ## Gather the source rows, add them up at the target rows -/

/-- Entry `(n, l)` of the aggregation of a table `T`: zero plus, over the edges whose target word is `n`, the table's
    entry `l` of the row the edge's source word names. -/
theorem aggregate_apply {C : ℕ}
    (dS : ScatterDims ⟨2, ![50000, C]⟩ ⟨2, ![850000, 1]⟩ ⟨2, ![850000, C]⟩)
    (wfS : ScatterDims.WF ⟨2, ![50000, C]⟩ ⟨2, ![850000, 1]⟩ ⟨2, ![850000, C]⟩ [1] [0] [0] 1)
    (hdS : dS = rowScatterDims 50000 850000 C wfS)
    (dG : GatherDims ⟨2, ![50000, C]⟩ ⟨2, ![850000, 1]⟩ ⟨2, ![850000, C]⟩)
    (wfG : GatherDims.WF ⟨2, ![50000, C]⟩ ⟨2, ![850000, 1]⟩ ⟨2, ![850000, C]⟩ [1] [0] [] [0] [] 1 ![1, C])
    (hdG : dG = rowGatherDims 50000 850000 C wfG)
    (hz : (⟨0, ![]⟩ : Shape).BroadcastsInDim ⟨2, ![50000, C]⟩ (![] : Fin 0 → Fin 2))
    (hcol : (⟨1, ![850000]⟩ : Shape).BroadcastsInDim ⟨2, ![850000, 1]⟩ (![0] : Fin 1 → Fin 2))
    (hsc : (⟨0, ![]⟩ : Shape).BroadcastsInDim ⟨1, ![850000]⟩ (![] : Fin 0 → Fin 1))
    (T : FVec Ideal ⟨2, ![50000, C]⟩ .f32) (sv dv : IVec ⟨1, ![850000]⟩ 32) (n : Fin 50000) (l : Fin C) :
    Host.scatterAdd (F := Ideal) dS
        (broadcastInDim ⟨2, ![50000, C]⟩ ![] hz (constant (F := Ideal) ⟨0, ![]⟩ .f32 0x00000000#32))
        (broadcastInDim ⟨2, ![850000, 1]⟩ ![0] hcol dv)
        (Host.gather dG T (broadcastInDim ⟨2, ![850000, 1]⟩ ![0] hcol
          (select (cmpi .slt sv (broadcastInDim ⟨1, ![850000]⟩ ![] hsc (constantI ⟨0, ![]⟩ 32 0#32)))
            (addi sv (broadcastInDim ⟨1, ![850000]⟩ ![] hsc (constantI ⟨0, ![]⟩ 32 50000#32))) sv))) (ix2 n l)
      = z + ∑ e : Fin 850000, if (dv (ix1 e)).toInt = (n.val : ℤ) then T (ix2 (rowOf (sv (ix1 e))) l) else 0 := by
  subst hdS hdG
  rw [rowScatterAdd_apply, bcastScalar_apply]
  refine congrArg (z + ·) (Finset.sum_congr rfl fun e _ => ?_)
  rw [bcastCol_apply (by decide)]
  rw [show ∀ (I : IVec ⟨2, ![850000, 1]⟩ 32), Host.gather (rowGatherDims 50000 850000 C wfG) T I (ix2 e l)
      = T (ix2 (clampRow (I (ix2 e (0 : Fin 1)))) l) from fun I => rowGather_apply (by decide) wfG T I e l]
  rw [wrapCol_apply]
  rfl

end Cert.GcnOps

end
-- ==== Proof.RegionLin.lean ====
/-
  What the two matrix-product regions of the kernel program leave in their output arrays, each as ONE function of
  the arrays the region finds at entry.

  Both regions run the same body on a grid of 10 points.  Point `t` holds rows `5000 t … 5000 t + 4999` of the
  node table `x` and of the one-column table `d`, and the whole weight matrix `w`; it writes rows
  `5000 t … 5000 t + 4999` of the result.  The body multiplies its block of `x` by `w` (the conversions to the
  narrower float format are the identity on extended reals, and the product accumulates into zero, so entry
  `(p, q)` is the plain sum over `k` of `x (p, k) * w (k, q)`) and scales row `p` by `d (p, 0)`.  A row `r` of
  the result lies in the block of the point `r / 5000`, so the ten blocks cover the array and the array ends as
  `Cert.Gcn.linArr x w d`.
-/
import proofs.«130912_j54537494724630_2_alg».proof.Proof.Gen.KernelIdeal.Frame
import proofs.«130912_j54537494724630_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-! ## Layout readings shared by the two regions -/

/-- The zero offsets of a whole-block access, however they are spelt. -/
theorem zeroOffsets : (![0, 0] : Fin 2 → Nat) = fun _ => 0 := funext fun a => by fin_cases a <;> rfl

/-- One column `[a, 1]` broadcast along the rows to `[a, b]` reads, at `(p, c)`, the operand at `(p, 0)`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of the block of point `n` (of 10) is row `5000 n + p` of the table. -/
def rowAt (n : ℕ) (hn : n < 10) (p : Fin 5000) : Fin 50000 := ⟨n * 5000 + p.val, by have := p.isLt; omega⟩

/-! ## Region 0: the body at an entry of its block -/

theorem lhs0_row (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_mid (j : S5000x128.Idx) (k : dot_S5000x128_S128x128_S5000x128_1_0_0_1_n_n.contr.Idx) : (dot_S5000x128_S128x128_S5000x128_1_0_0_1_n_n.lhsIdx j k 1).val = (k ⟨0, by decide⟩).val :=
  dot_S5000x128_S128x128_S5000x128_1_0_0_1_n_n.lhsIdx_val_of_single rfl j k
theorem rhs0_mid (j : S5000x128.Idx) (k : dot_S5000x128_S128x128_S5000x128_1_0_0_1_n_n.contr.Idx) : (dot_S5000x128_S128x128_S5000x128_1_0_0_1_n_n.rhsIdx j k 0).val = (k ⟨0, by decide⟩).val :=
  dot_S5000x128_S128x128_S5000x128_1_0_0_1_n_n.rhsIdx_val_of_single rfl j k
theorem rhs0_col (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into the zero accumulator, at `(p, q)`: the sum over the 128 shared coordinates. -/
theorem product0_apply (x0 : FVec Ideal S5000x128 .bf16) (x1 : FVec Ideal S128x128 .bf16) (p : Fin 5000) (q : Fin 128) :
    matmul dot_S5000x128_S128x128_S5000x128_1_0_0_1_n_n none x0 x1 (constant S5000x128 .f32 0x00000000#32) (ix2 p q)
      = ∑ k : Fin 128, x0 (ix2 p k) * x1 (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_row _ _
    | ⟨1, _⟩ => exact (lhs0_mid _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_mid _ _).trans hk
    | ⟨1, _⟩ => exact rhs0_col _ _)
  rw [el, er]

/-- The body's result at `(p, q)`: the product's entry scaled by the one-column block's entry of row `p`. -/
theorem body0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  refine congrArg₂ (· * ·) (product0_apply (truncf .bf16 x0 bitsLt_bf16_f32) (truncf .bf16 x1 bitsLt_bf16_f32) p q) ?_
  rw [shapeCast_self]
  exact colBroadcast_apply x2 broadcasts_S5000x1_S5000x128 p q

/-- A block of the body's result is the block of `linArr` of three tables, when the body's operands are the tables'
    blocks at point `n`: rows `5000 n …` of the first and the third, the whole second. -/
theorem body0_block (A : S50000x128.Idx → EReal) (B : S128x128.Idx → EReal) (D : S50000x1.Idx → EReal)
    (x0 : Vec Ideal S5000x128 .f32) (x1 : Vec Ideal S128x128 .f32) (x2 : Vec Ideal S5000x1 .f32) (n : ℕ) (hn : n < 10)
    (h0 : ∀ (p : Fin 5000) (k : Fin 128), x0 (ix2 p k) = A (ix2 (rowAt n hn p) k))
    (h1 : ∀ (k : Fin 128) (q : Fin 128), x1 (ix2 k q) = B (ix2 k q))
    (h2 : ∀ p : Fin 5000, x2 (ix2 p (0 : Fin 1)) = D (ix2 (rowAt n hn p) (0 : Fin 1)))
    (y : S5000x128.Idx) (i : S50000x128.Idx) (hi0 : (i 0).val = n * 5000 + (y 0).val) (hi1 : (i 1).val = (y 1).val) :
    k0_pay1 x0 x1 x2 y = linArr (K := 128) (C := 128) A B D i := by
  obtain ⟨p, q, rfl⟩ : ∃ (p : Fin 5000) (q : Fin 128), y = ix2 p q := ⟨y 0, y 1, eq_ix2 y⟩
  obtain ⟨r, l, rfl⟩ : ∃ (r : Fin 50000) (l : Fin 128), i = ix2 r l := ⟨i 0, i 1, eq_ix2 i⟩
  have er : r = rowAt n hn p := Fin.ext hi0
  have el : q = l := (Fin.ext hi1).symm
  subst er el
  rw [body0_apply]
  show _ = (∑ k : Fin 128, A (ix2 (rowAt n hn p) k) * B (ix2 k q)) * D (ix2 (rowAt n hn p) (0 : Fin 1))
  rw [h2 p]
  exact congrArg (· * D (ix2 (rowAt n hn p) (0 : Fin 1))) (Finset.sum_congr rfl fun k _ => by rw [h0 p k, h1 k q])

/-! ## Region 0: the blocks the windows hold -/

section
variable (V : (c : Dev nD) → (b : Ref sig .tc) → Buf (Elt Ideal) ((c : Thread nD τ).loc b))

/-- The printed index maps, decided over the grid: the row-blocked windows are on block `t` of axis 0 at point `t`,
    the weight window stays on its one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point0_lt (t : Fin cfg0.N) : t.val < 10 := lt_of_lt_of_eq t.isLt N_0

/-- Window 0's block at point `t` is rows `5000 t …` of the table it stages. -/
theorem iblk0_0_apply (c : Dev nD) (t : Fin cfg0.N) (p : Fin 5000) (k : Fin 128) :
    (iblk0 V c 0 t : Vec Ideal S5000x128 .f32) (ix2 p k)
      = (V c main_arg0 : S50000x128.Idx → EReal) (ix2 (rowAt t.val (point0_lt t) p) k) := by
  obtain ⟨e0, e1, -⟩ := blockIdx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Window 1's block at every point is the whole weight matrix. -/
theorem iblk0_1_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := blockIdx0 t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Window 2's block at point `t` is rows `5000 t …` of the one-column table. -/
theorem iblk0_2_apply (c : Dev nD) (t : Fin cfg0.N) (p : Fin 5000) :
    (iblk0 V c 2 t : Vec Ideal S5000x1 .f32) (ix2 p (0 : Fin 1))
      = (V c main_v15 : S50000x1.Idx → EReal) (ix2 (rowAt t.val (point0_lt t) p) (0 : Fin 1)) := by
  obtain ⟨-, -, -, -, e0, e1, -⟩ := blockIdx0 t
  unfold iblk0
  rw [View.read_apply]
  show V c main_v15 _ = V c main_v15 _
  refine congrArg (V c main_v15) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * (0 : Fin 1).val = (0 : Fin 1).val; rw [e1]; rfl

/-! ## Region 0: from the blocks to the array -/

/-- What point `t` writes back is block `t` of `linArr` of the three arrays as the region finds them. -/
theorem flushed0_eq (c : Dev nD) (t : Fin cfg0.N) :
    (dat0 (F := Ideal) V c).flushed 3 t
      = ((cfg0.win 3).blk t).view.read (Elt Ideal)
          (linArr (K := 128) (C := 128) (V c main_arg0) (V c main_arg2) (V c main_v15)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets,
    View.ld_unit_zero (S := S5000x1) zeroOffsets]
  obtain ⟨-, -, -, -, -, -, e0, e1⟩ := blockIdx0 t
  funext y
  show k0_pay1 (iblk0 V c 0 t) (iblk0 V c 1 t) (iblk0 V c 2 t) y
    = linArr (K := 128) (C := 128) (V c main_arg0) (V c main_arg2) (V c main_v15) (((cfg0.win 3).blk t).view.emb y)
  refine body0_block (V c main_arg0) (V c main_arg2) (V c main_v15) (iblk0 V c 0 t) (iblk0 V c 1 t) (iblk0 V c 2 t)
    t.val (point0_lt t) (iblk0_0_apply V c t) (iblk0_1_apply V c t) (iblk0_2_apply V c t) y
    (((cfg0.win 3).blk t).view.emb y) ?_ ?_
  · show win0_3.index t (0 : Fin 2) * 5000 + 1 * (y 0).val = t.val * 5000 + (y 0).val
    rw [e0]; omega
  · show win0_3.index t (1 : Fin 2) * 128 + 1 * (y 1).val = (y 1).val
    rw [e1]; omega

/-- An index of the result array is in point `t`'s block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row `r` of the result is in the block of the point `r / 5000`: the ten blocks cover the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e0, e1⟩ := blockIdx0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- THE ARRAY region 0 leaves: the matrix product of the first two arrays it finds, every row scaled by the
    third's entry of that row. -/
theorem region0_value (c : Dev nD) :
    (dat0 (F := Ideal) V c).arrAt 3 cfg0.N
      = linArr (K := 128) (C := 128) (V c main_arg0) (V c main_arg2) (V c main_v15) :=
  (dat0 (F := Ideal) V c).arrAt_eq_of_cover 3
    (linArr (K := 128) (C := 128) (V c main_arg0) (V c main_arg2) (V c main_v15))
    (fun t _ => flushed0_eq V c t) (cover0)

end

/-! ## Region 2: the body at an entry of its block -/

theorem lhs2_row (j : S5000x64.Idx) (k : dot_S5000x128_S128x64_S5000x64_1_0_0_1_n_n.contr.Idx) : (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs2_mid (j : S5000x64.Idx) (k : dot_S5000x128_S128x64_S5000x64_1_0_0_1_n_n.contr.Idx) : (dot_S5000x128_S128x64_S5000x64_1_0_0_1_n_n.lhsIdx j k 1).val = (k ⟨0, by decide⟩).val :=
  dot_S5000x128_S128x64_S5000x64_1_0_0_1_n_n.lhsIdx_val_of_single rfl j k
theorem rhs2_mid (j : S5000x64.Idx) (k : dot_S5000x128_S128x64_S5000x64_1_0_0_1_n_n.contr.Idx) : (dot_S5000x128_S128x64_S5000x64_1_0_0_1_n_n.rhsIdx j k 0).val = (k ⟨0, by decide⟩).val :=
  dot_S5000x128_S128x64_S5000x64_1_0_0_1_n_n.rhsIdx_val_of_single rfl j k
theorem rhs2_col (j : S5000x64.Idx) (k : dot_S5000x128_S128x64_S5000x64_1_0_0_1_n_n.contr.Idx) : (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's matrix product into the zero accumulator, at `(p, q)`: the sum over the 128 shared coordinates. -/
theorem product2_apply (x0 : FVec Ideal S5000x128 .bf16) (x1 : FVec Ideal S128x64 .bf16) (p : Fin 5000) (q : Fin 64) :
    matmul dot_S5000x128_S128x64_S5000x64_1_0_0_1_n_n none x0 x1 (constant S5000x64 .f32 0x00000000#32) (ix2 p q)
      = ∑ k : Fin 128, x0 (ix2 p k) * x1 (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs2_row _ _
    | ⟨1, _⟩ => exact (lhs2_mid _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs2_mid _ _).trans hk
    | ⟨1, _⟩ => exact rhs2_col _ _)
  rw [el, er]

/-- The body's result at `(p, q)`: the product's entry scaled by the one-column block's entry of row `p`. -/
theorem body2_apply (x0 : Vec Ideal S5000x128 .f32) (x1 : Vec Ideal S128x64 .f32) (x2 : Vec Ideal S5000x1 .f32)
    (p : Fin 5000) (q : Fin 64) :
    k2_pay1 x0 x1 x2 (ix2 p q) = (∑ k : Fin 128, x0 (ix2 p k) * x1 (ix2 k q)) * x2 (ix2 p (0 : Fin 1)) := by
  unfold k2_pay1
  simp only [shapeCast_self]
  refine congrArg₂ (· * ·) (product2_apply (truncf .bf16 x0 bitsLt_bf16_f32) (truncf .bf16 x1 bitsLt_bf16_f32) p q) ?_
  exact colBroadcast_apply x2 broadcasts_S5000x1_S5000x64 p q

/-- A block of the body's result is the block of `linArr` of three tables, when the body's operands are the tables'
    blocks at point `n`: rows `5000 n …` of the first and the third, the whole second. -/
theorem body2_block (A : S50000x128.Idx → EReal) (B : S128x64.Idx → EReal) (D : S50000x1.Idx → EReal)
    (x0 : Vec Ideal S5000x128 .f32) (x1 : Vec Ideal S128x64 .f32) (x2 : Vec Ideal S5000x1 .f32) (n : ℕ) (hn : n < 10)
    (h0 : ∀ (p : Fin 5000) (k : Fin 128), x0 (ix2 p k) = A (ix2 (rowAt n hn p) k))
    (h1 : ∀ (k : Fin 128) (q : Fin 64), x1 (ix2 k q) = B (ix2 k q))
    (h2 : ∀ p : Fin 5000, x2 (ix2 p (0 : Fin 1)) = D (ix2 (rowAt n hn p) (0 : Fin 1)))
    (y : S5000x64.Idx) (i : S50000x64.Idx) (hi0 : (i 0).val = n * 5000 + (y 0).val) (hi1 : (i 1).val = (y 1).val) :
    k2_pay1 x0 x1 x2 y = linArr (K := 128) (C := 64) A B D i := by
  obtain ⟨p, q, rfl⟩ : ∃ (p : Fin 5000) (q : Fin 64), y = ix2 p q := ⟨y 0, y 1, eq_ix2 y⟩
  obtain ⟨r, l, rfl⟩ : ∃ (r : Fin 50000) (l : Fin 64), i = ix2 r l := ⟨i 0, i 1, eq_ix2 i⟩
  have er : r = rowAt n hn p := Fin.ext hi0
  have el : q = l := (Fin.ext hi1).symm
  subst er el
  rw [body2_apply]
  show _ = (∑ k : Fin 128, A (ix2 (rowAt n hn p) k) * B (ix2 k q)) * D (ix2 (rowAt n hn p) (0 : Fin 1))
  rw [h2 p]
  exact congrArg (· * D (ix2 (rowAt n hn p) (0 : Fin 1))) (Finset.sum_congr rfl fun k _ => by rw [h0 p k, h1 k q])

/-! ## Region 2: the blocks the windows hold -/

section
variable (V : (c : Dev nD) → (b : Ref sig .tc) → Buf (Elt Ideal) ((c : Thread nD τ).loc b))

/-- The printed index maps, decided over the grid: the row-blocked windows are on block `t` of axis 0 at point `t`,
    the weight window stays on its one block. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem point2_lt (t : Fin cfg2.N) : t.val < 10 := lt_of_lt_of_eq t.isLt N_2

/-- Window 0's block at point `t` is rows `5000 t …` of the table it stages. -/
theorem iblk2_0_apply (c : Dev nD) (t : Fin cfg2.N) (p : Fin 5000) (k : Fin 128) :
    (iblk2 V c 0 t : Vec Ideal S5000x128 .f32) (ix2 p k)
      = (V c main_v28 : S50000x128.Idx → EReal) (ix2 (rowAt t.val (point2_lt t) p) k) := by
  obtain ⟨e0, e1, -⟩ := blockIdx2 t
  unfold iblk2
  rw [View.read_apply]
  show V c main_v28 _ = V c main_v28 _
  refine congrArg (V c main_v28) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Window 1's block at every point is the whole weight matrix. -/
theorem iblk2_1_apply (c : Dev nD) (t : Fin cfg2.N) (k : Fin 128) (q : Fin 64) :
    (iblk2 V c 1 t : Vec Ideal S128x64 .f32) (ix2 k q) = (V c main_arg4 : S128x64.Idx → EReal) (ix2 k q) := by
  obtain ⟨-, -, e0, e1, -⟩ := blockIdx2 t
  unfold iblk2
  rw [View.read_apply]
  show V c main_arg4 _ = V c main_arg4 _
  refine congrArg (V c main_arg4) (funext fun a => Fin.ext ?_)
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- Window 2's block at point `t` is rows `5000 t …` of the one-column table. -/
theorem iblk2_2_apply (c : Dev nD) (t : Fin cfg2.N) (p : Fin 5000) :
    (iblk2 V c 2 t : Vec Ideal S5000x1 .f32) (ix2 p (0 : Fin 1))
      = (V c main_v15 : S50000x1.Idx → EReal) (ix2 (rowAt t.val (point2_lt t) p) (0 : Fin 1)) := by
  obtain ⟨-, -, -, -, e0, e1, -⟩ := blockIdx2 t
  unfold iblk2
  rw [View.read_apply]
  show V c main_v15 _ = V c main_v15 _
  refine congrArg (V c main_v15) (funext fun a => Fin.ext ?_)
  match a with
  | ⟨0, _⟩ => show win2_2.index t (0 : Fin 2) * 5000 + 1 * p.val = t.val * 5000 + p.val; rw [e0]; omega
  | ⟨1, _⟩ => show win2_2.index t (1 : Fin 2) * 1 + 1 * (0 : Fin 1).val = (0 : Fin 1).val; rw [e1]; rfl

/-! ## Region 2: from the blocks to the array -/

/-- What point `t` writes back is block `t` of `linArr` of the three arrays as the region finds them. -/
theorem flushed2_eq (c : Dev nD) (t : Fin cfg2.N) :
    (dat2 (F := Ideal) V c).flushed 3 t
      = ((cfg2.win 3).blk t).view.read (Elt Ideal)
          (linArr (K := 128) (C := 64) (V c main_v28) (V c main_arg4) (V c main_v15)) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S128x64) zeroOffsets,
    View.ld_unit_zero (S := S5000x1) zeroOffsets]
  obtain ⟨-, -, -, -, -, -, e0, e1⟩ := blockIdx2 t
  funext y
  show k2_pay1 (iblk2 V c 0 t) (iblk2 V c 1 t) (iblk2 V c 2 t) y
    = linArr (K := 128) (C := 64) (V c main_v28) (V c main_arg4) (V c main_v15) (((cfg2.win 3).blk t).view.emb y)
  refine body2_block (V c main_v28) (V c main_arg4) (V c main_v15) (iblk2 V c 0 t) (iblk2 V c 1 t) (iblk2 V c 2 t)
    t.val (point2_lt t) (iblk2_0_apply V c t) (iblk2_1_apply V c t) (iblk2_2_apply V c t) y
    (((cfg2.win 3).blk t).view.emb y) ?_ ?_
  · show win2_3.index t (0 : Fin 2) * 5000 + 1 * (y 0).val = t.val * 5000 + (y 0).val
    rw [e0]; omega
  · show win2_3.index t (1 : Fin 2) * 64 + 1 * (y 1).val = (y 1).val
    rw [e1]; omega

/-- An index of the result array is in point `t`'s block iff each coordinate is in the block's range on its axis. -/
theorem mem_block2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v29).slice (win2_3.rect t)).set ↔ _
  rw [View.set_slice_whole, Rect.mem_set_unit]
  exact Iff.rfl

/-- Row `r` of the result is in the block of the point `r / 5000`: the ten blocks cover the array. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, e0, e1⟩ := blockIdx2 t
  refine ⟨t, flush2_3 t, ?_⟩
  rw [mem_block2]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 64 ≤ (i 1).val ∧ (i 1).val < win2_3.index t (1 : Fin 2) * 64 + 64
    rw [e1]; omega

/-- THE ARRAY region 2 leaves: the matrix product of the first two arrays it finds, every row scaled by the
    third's entry of that row. -/
theorem region2_value (c : Dev nD) :
    (dat2 (F := Ideal) V c).arrAt 3 cfg2.N
      = linArr (K := 128) (C := 64) (V c main_v28) (V c main_arg4) (V c main_v15) :=
  (dat2 (F := Ideal) V c).arrAt_eq_of_cover 3
    (linArr (K := 128) (C := 64) (V c main_v28) (V c main_arg4) (V c main_v15))
    (fun t _ => flushed2_eq V c t) (cover2)

end

end Cert.KernelIdeal.RegionValue

end
-- ==== Proof.RegionFin.lean ====
/-
  What the two finishing regions of the kernel program leave in their output arrays, each as ONE function of the
  arrays the region finds at entry.

  Both regions run the same body on a grid of 10 points.  Point `t` holds rows `5000 t … 5000 t + 4999` of the
  aggregated table `a` and of the one-column table `d`, and the whole one-row table `b`; it writes rows
  `5000 t … 5000 t + 4999` of the result.  The body scales row `p` of its block of `a` by `d (p, 0)` and adds
  `b (0, q)` in column `q`; the first of the two regions then takes the maximum with the float zero.  A row `r` of
  the result lies in the block of the point `r / 5000`, so the ten blocks cover the array and the array ends as
  `Cert.Gcn.finReluArr a d b` (first region) or `Cert.Gcn.finArr a d b` (second).
-/
import proofs.«130912_j54537494724630_2_alg».proof.Proof.Gen.KernelIdeal.Frame
import proofs.«130912_j54537494724630_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-! ## Layout readings shared by the two regions -/

/-- The zero offsets of a whole-block access, however they are spelt. -/
theorem zeroOffsetsF : (![0, 0] : Fin 2 → Nat) = fun _ => 0 := funext fun a => by fin_cases a <;> rfl

/-- One column `[a, 1]` broadcast along the rows to `[a, b]` reads, at `(p, c)`, the operand at `(p, 0)`. -/
theorem colBroadcastF_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of the block of point `n` (of 10) is row `5000 n + p` of the table. -/
def rowAtF (n : ℕ) (hn : n < 10) (p : Fin 5000) : Fin 50000 := ⟨n * 5000 + p.val, by have := p.isLt; omega⟩

/-! ## Region 1: the body at an entry of its block -/

/-- The body's result at `(p, q)`: the block's entry scaled by the one-column block's entry of row `p`, plus the
    one-row block's entry of column `q`, and the maximum of that with the float zero. -/
theorem body1_apply (x0 : Vec Ideal S5000x128 .f32) (x1 : Vec Ideal S5000x1 .f32) (x2 : Vec Ideal S1x128 .f32)
    (p : Fin 5000) (q : Fin 128) :
    k1_pay1 x0 x1 x2 (ix2 p q) = max (x0 (ix2 p q) * x1 (ix2 p (0 : Fin 1)) + x2 (ix2 (0 : Fin 1) q)) z := by
  unfold k1_pay1
  simp only [shapeCast_self]
  exact congrArg₂ max (congrArg₂ (· + ·) (congrArg (x0 (ix2 p q) * ·) (colBroadcastF_apply x1 broadcasts_S5000x1_S5000x128 p q))
      (broadcastTo_1b_ab_apply x2 broadcasts_S1x128_S5000x128 p q)) rfl

/-- A block of the body's result is the block of `finReluArr` of three tables, when the body's operands are the tables'
    blocks at point `n`: rows `5000 n …` of the first and the second, the whole third. -/
theorem body1_block (A : S50000x128.Idx → EReal) (D : S50000x1.Idx → EReal) (B : S1x128.Idx → EReal)
    (x0 : Vec Ideal S5000x128 .f32) (x1 : Vec Ideal S5000x1 .f32) (x2 : Vec Ideal S1x128 .f32) (n : ℕ) (hn : n < 10)
    (h0 : ∀ (p : Fin 5000) (q : Fin 128), x0 (ix2 p q) = A (ix2 (rowAtF n hn p) q))
    (h1 : ∀ p : Fin 5000, x1 (ix2 p (0 : Fin 1)) = D (ix2 (rowAtF n hn p) (0 : Fin 1)))
    (h2 : ∀ q : Fin 128, x2 (ix2 (0 : Fin 1) q) = B (ix2 (0 : Fin 1) q))
    (y : S5000x128.Idx) (i : S50000x128.Idx) (hi0 : (i 0).val = n * 5000 + (y 0).val) (hi1 : (i 1).val = (y 1).val) :
    k1_pay1 x0 x1 x2 y = finReluArr (C := 128) A D B i := by
  obtain ⟨p, q, rfl⟩ : ∃ (p : Fin 5000) (q : Fin 128), y = ix2 p q := ⟨y 0, y 1, eq_ix2 y⟩
  obtain ⟨r, l, rfl⟩ : ∃ (r : Fin 50000) (l : Fin 128), i = ix2 r l := ⟨i 0, i 1, eq_ix2 i⟩
  have er : r = rowAtF n hn p := Fin.ext hi0
  have el : q = l := (Fin.ext hi1).symm
  subst er el
  rw [body1_apply, h0 p q, h1 p, h2 q]
  rfl

/-! ## Region 1: the blocks the windows hold -/

section
variable (V : (c : Dev nD) → (b : Ref sig .tc) → Buf (Elt Ideal) ((c : Thread nD τ).loc b))

/-- The printed index maps, decided over the grid: the row-blocked windows are on block `t` of axis 0 at point `t`,
    the one-row window stays on its one block. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point1_lt (t : Fin cfg1.N) : t.val < 10 := lt_of_lt_of_eq t.isLt N_1

/-- Window 0's block at point `t` is rows `5000 t …` of the table it stages. -/
theorem iblk1_0_apply (c : Dev nD) (t : Fin cfg1.N) (p : Fin 5000) (q : Fin 128) :
    (iblk1 V c 0 t : Vec Ideal S5000x128 .f32) (ix2 p q)
      = (V c main_v26 : S50000x128.Idx → EReal) (ix2 (rowAtF t.val (point1_lt t) p) q) := by
  obtain ⟨e0, e1, -⟩ := blockIdx1 t
  unfold iblk1
  rw [View.read_apply]
  show V c main_v26 _ = V c main_v26 _
  refine congrArg (V c main_v26) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- Window 1's block at point `t` is rows `5000 t …` of the one-column table. -/
theorem iblk1_1_apply (c : Dev nD) (t : Fin cfg1.N) (p : Fin 5000) :
    (iblk1 V c 1 t : Vec Ideal S5000x1 .f32) (ix2 p (0 : Fin 1))
      = (V c main_v15 : S50000x1.Idx → EReal) (ix2 (rowAtF t.val (point1_lt t) p) (0 : Fin 1)) := by
  obtain ⟨-, -, e0, e1, -⟩ := blockIdx1 t
  unfold iblk1
  rw [View.read_apply]
  show V c main_v15 _ = V c main_v15 _
  refine congrArg (V c main_v15) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * (0 : Fin 1).val = (0 : Fin 1).val; rw [e1]; rfl

/-- Window 2's block at every point is the whole one-row table. -/
theorem iblk1_2_apply (c : Dev nD) (t : Fin cfg1.N) (q : Fin 128) :
    (iblk1 V c 2 t : Vec Ideal S1x128 .f32) (ix2 (0 : Fin 1) q) = (V c main_v27 : S1x128.Idx → EReal) (ix2 (0 : Fin 1) q) := by
  obtain ⟨-, -, -, -, e0, e1, -⟩ := blockIdx1 t
  unfold iblk1
  rw [View.read_apply]
  show V c main_v27 _ = V c main_v27 _
  refine congrArg (V c main_v27) (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 128 + 1 * q.val = q.val; rw [e1]; omega

/-! ## Region 1: from the blocks to the array -/

/-- What point `t` writes back is block `t` of `finReluArr` of the three arrays as the region finds them. -/
theorem flushed1_eq (c : Dev nD) (t : Fin cfg1.N) :
    (dat1 (F := Ideal) V c).flushed 3 t
      = ((cfg1.win 3).blk t).view.read (Elt Ideal) (finReluArr (C := 128) (V c main_v26) (V c main_v15) (V c main_v27)) := by
  show (cfg1.win 3).cut (grid1.coords t) ((dat1 V c).after 3 t) = _
  rw [after1_3]
  unfold out1_3
  rw [View.canon_unit_zero zeroOffsetsF]
  simp only [View.ld_unit_zero (S := S5000x128) zeroOffsetsF, View.ld_unit_zero (S := S5000x1) zeroOffsetsF,
    View.ld_unit_zero (S := S1x128) zeroOffsetsF]
  obtain ⟨-, -, -, -, -, -, e0, e1⟩ := blockIdx1 t
  funext y
  show k1_pay1 (iblk1 V c 0 t) (iblk1 V c 1 t) (iblk1 V c 2 t) y
    = finReluArr (C := 128) (V c main_v26) (V c main_v15) (V c main_v27) (((cfg1.win 3).blk t).view.emb y)
  refine body1_block (V c main_v26) (V c main_v15) (V c main_v27) (iblk1 V c 0 t) (iblk1 V c 1 t) (iblk1 V c 2 t)
    t.val (point1_lt t) (iblk1_0_apply V c t) (iblk1_1_apply V c t) (iblk1_2_apply V c t) y
    (((cfg1.win 3).blk t).view.emb y) ?_ ?_
  · show win1_3.index t (0 : Fin 2) * 5000 + 1 * (y 0).val = t.val * 5000 + (y 0).val
    rw [e0]; omega
  · show win1_3.index t (1 : Fin 2) * 128 + 1 * (y 1).val = (y 1).val
    rw [e1]; omega

/-- An index of the result array is in point `t`'s block iff each coordinate is in the block's range on its axis. -/
theorem mem_block1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- Row `r` of the result is in the block of the point `r / 5000`: the ten blocks cover the array. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, e0, e1⟩ := blockIdx1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- THE ARRAY region 1 leaves: every row of the first array it finds scaled by the second's entry of that row,
    the third's one row added to every row, and the positive part taken. -/
theorem region1_value (c : Dev nD) :
    (dat1 (F := Ideal) V c).arrAt 3 cfg1.N = finReluArr (C := 128) (V c main_v26) (V c main_v15) (V c main_v27) :=
  (dat1 (F := Ideal) V c).arrAt_eq_of_cover 3 (finReluArr (C := 128) (V c main_v26) (V c main_v15) (V c main_v27))
    (fun t _ => flushed1_eq V c t) (cover1)

end

/-! ## Region 3: the body at an entry of its block -/

/-- The body's result at `(p, q)`: the block's entry scaled by the one-column block's entry of row `p`, plus the
    one-row block's entry of column `q`. -/
theorem body3_apply (x0 : Vec Ideal S5000x64 .f32) (x1 : Vec Ideal S5000x1 .f32) (x2 : Vec Ideal S1x64 .f32)
    (p : Fin 5000) (q : Fin 64) :
    k3_pay1 x0 x1 x2 (ix2 p q) = x0 (ix2 p q) * x1 (ix2 p (0 : Fin 1)) + x2 (ix2 (0 : Fin 1) q) := by
  unfold k3_pay1
  simp only [shapeCast_self]
  exact congrArg₂ (· + ·) (congrArg (x0 (ix2 p q) * ·) (colBroadcastF_apply x1 broadcasts_S5000x1_S5000x64 p q))
      (broadcastTo_1b_ab_apply x2 broadcasts_S1x64_S5000x64 p q)

/-- A block of the body's result is the block of `finArr` of three tables, when the body's operands are the tables'
    blocks at point `n`: rows `5000 n …` of the first and the second, the whole third. -/
theorem body3_block (A : S50000x64.Idx → EReal) (D : S50000x1.Idx → EReal) (B : S1x64.Idx → EReal)
    (x0 : Vec Ideal S5000x64 .f32) (x1 : Vec Ideal S5000x1 .f32) (x2 : Vec Ideal S1x64 .f32) (n : ℕ) (hn : n < 10)
    (h0 : ∀ (p : Fin 5000) (q : Fin 64), x0 (ix2 p q) = A (ix2 (rowAtF n hn p) q))
    (h1 : ∀ p : Fin 5000, x1 (ix2 p (0 : Fin 1)) = D (ix2 (rowAtF n hn p) (0 : Fin 1)))
    (h2 : ∀ q : Fin 64, x2 (ix2 (0 : Fin 1) q) = B (ix2 (0 : Fin 1) q))
    (y : S5000x64.Idx) (i : S50000x64.Idx) (hi0 : (i 0).val = n * 5000 + (y 0).val) (hi1 : (i 1).val = (y 1).val) :
    k3_pay1 x0 x1 x2 y = finArr (C := 64) A D B i := by
  obtain ⟨p, q, rfl⟩ : ∃ (p : Fin 5000) (q : Fin 64), y = ix2 p q := ⟨y 0, y 1, eq_ix2 y⟩
  obtain ⟨r, l, rfl⟩ : ∃ (r : Fin 50000) (l : Fin 64), i = ix2 r l := ⟨i 0, i 1, eq_ix2 i⟩
  have er : r = rowAtF n hn p := Fin.ext hi0
  have el : q = l := (Fin.ext hi1).symm
  subst er el
  rw [body3_apply, h0 p q, h1 p, h2 q]
  rfl

/-! ## Region 3: the blocks the windows hold -/

section
variable (V : (c : Dev nD) → (b : Ref sig .tc) → Buf (Elt Ideal) ((c : Thread nD τ).loc b))

/-- The printed index maps, decided over the grid: the row-blocked windows are on block `t` of axis 0 at point `t`,
    the one-row window stays on its one block. -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point3_lt (t : Fin cfg3.N) : t.val < 10 := lt_of_lt_of_eq t.isLt N_3

/-- Window 0's block at point `t` is rows `5000 t …` of the table it stages. -/
theorem iblk3_0_apply (c : Dev nD) (t : Fin cfg3.N) (p : Fin 5000) (q : Fin 64) :
    (iblk3 V c 0 t : Vec Ideal S5000x64 .f32) (ix2 p q)
      = (V c main_v39 : S50000x64.Idx → EReal) (ix2 (rowAtF t.val (point3_lt t) p) q) := by
  obtain ⟨e0, e1, -⟩ := blockIdx3 t
  unfold iblk3
  rw [View.read_apply]
  show V c main_v39 _ = V c main_v39 _
  refine congrArg (V c main_v39) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 64 + 1 * q.val = q.val; rw [e1]; omega

/-- Window 1's block at point `t` is rows `5000 t …` of the one-column table. -/
theorem iblk3_1_apply (c : Dev nD) (t : Fin cfg3.N) (p : Fin 5000) :
    (iblk3 V c 1 t : Vec Ideal S5000x1 .f32) (ix2 p (0 : Fin 1))
      = (V c main_v15 : S50000x1.Idx → EReal) (ix2 (rowAtF t.val (point3_lt t) p) (0 : Fin 1)) := by
  obtain ⟨-, -, e0, e1, -⟩ := blockIdx3 t
  unfold iblk3
  rw [View.read_apply]
  show V c main_v15 _ = V c main_v15 _
  refine congrArg (V c main_v15) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 1 + 1 * (0 : Fin 1).val = (0 : Fin 1).val; rw [e1]; rfl

/-- Window 2's block at every point is the whole one-row table. -/
theorem iblk3_2_apply (c : Dev nD) (t : Fin cfg3.N) (q : Fin 64) :
    (iblk3 V c 2 t : Vec Ideal S1x64 .f32) (ix2 (0 : Fin 1) q) = (V c main_v40 : S1x64.Idx → EReal) (ix2 (0 : Fin 1) q) := by
  obtain ⟨-, -, -, -, e0, e1, -⟩ := blockIdx3 t
  unfold iblk3
  rw [View.read_apply]
  show V c main_v40 _ = V c main_v40 _
  refine congrArg (V c main_v40) (funext fun a => Fin.ext ?_)
  match a with
  | ⟨0, _⟩ => show win3_2.index t (0 : Fin 2) * 1 + 1 * (0 : Fin 1).val = (0 : Fin 1).val; rw [e0]; rfl
  | ⟨1, _⟩ => show win3_2.index t (1 : Fin 2) * 64 + 1 * q.val = q.val; rw [e1]; omega

/-! ## Region 3: from the blocks to the array -/

/-- What point `t` writes back is block `t` of `finArr` of the three arrays as the region finds them. -/
theorem flushed3_eq (c : Dev nD) (t : Fin cfg3.N) :
    (dat3 (F := Ideal) V c).flushed 3 t
      = ((cfg3.win 3).blk t).view.read (Elt Ideal) (finArr (C := 64) (V c main_v39) (V c main_v15) (V c main_v40)) := by
  show (cfg3.win 3).cut (grid3.coords t) ((dat3 V c).after 3 t) = _
  rw [after3_3]
  unfold out3_3
  rw [View.canon_unit_zero zeroOffsetsF]
  simp only [View.ld_unit_zero (S := S5000x64) zeroOffsetsF, View.ld_unit_zero (S := S5000x1) zeroOffsetsF,
    View.ld_unit_zero (S := S1x64) zeroOffsetsF]
  obtain ⟨-, -, -, -, -, -, e0, e1⟩ := blockIdx3 t
  funext y
  show k3_pay1 (iblk3 V c 0 t) (iblk3 V c 1 t) (iblk3 V c 2 t) y
    = finArr (C := 64) (V c main_v39) (V c main_v15) (V c main_v40) (((cfg3.win 3).blk t).view.emb y)
  refine body3_block (V c main_v39) (V c main_v15) (V c main_v40) (iblk3 V c 0 t) (iblk3 V c 1 t) (iblk3 V c 2 t)
    t.val (point3_lt t) (iblk3_0_apply V c t) (iblk3_1_apply V c t) (iblk3_2_apply V c t) y
    (((cfg3.win 3).blk t).view.emb y) ?_ ?_
  · show win3_3.index t (0 : Fin 2) * 5000 + 1 * (y 0).val = t.val * 5000 + (y 0).val
    rw [e0]; omega
  · show win3_3.index t (1 : Fin 2) * 64 + 1 * (y 1).val = (y 1).val
    rw [e1]; omega

/-- An index of the result array is in point `t`'s block iff each coordinate is in the block's range on its axis. -/
theorem mem_block3 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v41).slice (win3_3.rect t)).set ↔ _
  rw [View.set_slice_whole, Rect.mem_set_unit]
  exact Iff.rfl

/-- Row `r` of the result is in the block of the point `r / 5000`: the ten blocks cover the array. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 10) N_3.symm⟩, rfl⟩
  obtain ⟨-, -, -, -, -, -, e0, e1⟩ := blockIdx3 t
  refine ⟨t, flush3_3 t, ?_⟩
  rw [mem_block3]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 64 ≤ (i 1).val ∧ (i 1).val < win3_3.index t (1 : Fin 2) * 64 + 64
    rw [e1]; omega

/-- THE ARRAY region 3 leaves: every row of the first array it finds scaled by the second's entry of that row,
    the third's one row added to every row. -/
theorem region3_value (c : Dev nD) :
    (dat3 (F := Ideal) V c).arrAt 3 cfg3.N = finArr (C := 64) (V c main_v39) (V c main_v15) (V c main_v40) :=
  (dat3 (F := Ideal) V c).arrAt_eq_of_cover 3 (finArr (C := 64) (V c main_v39) (V c main_v15) (V c main_v40))
    (fun t _ => flushed3_eq V c t) (cover3)

end

end Cert.KernelIdeal.RegionValue

end
-- ==== Proof.KValue.lean ====
/-
  The idealized kernel program's result, entry by entry: the graph convolution with the target's normalisation factor
  applied to each finished sum (`Cert.Gcn.outK`).

  Between the regions the host gathers the rows of the scaled product the source words name and adds them up at the rows
  the target words name; each region's output array is one whole-array function of the arrays it finds (the four
  hypotheses `h0 … h3` below, one per region). Read from the last boundary back to the launch: the result is the
  finishing step of layer 2 over the aggregation of the scaled product of the positive part of layer 1's result, which
  is the same composition one layer down.
-/
import proofs.«130912_j54537494724630_2_alg».proof.Proof.KChain
import proofs.«130912_j54537494724630_2_alg».proof.Proof.GcnOps
import proofs.«130912_j54537494724630_2_alg».proof.Proof.LibFoldCat
import proofs.«130912_j54537494724630_2_alg».proof.Proof.RegionLin
import proofs.«130912_j54537494724630_2_alg».proof.Proof.RegionFin

set_option maxRecDepth 16384

noncomputable section

namespace Cert.KernelIdeal.KValue

open Cert.KernelIdeal Cert.KernelIdeal.Gen Cert.KernelIdeal.Chain
open Idealize.ShloMosaic Idealize.ShloMosaic.TcCoe Idealize.SL.Sem Idealize.ShloMosaic.StableHlo Idealize.ShloMosaic.ValueIdx
open Cert.Gcn Cert.GcnOps Cert.LibFoldCat Cert.KernelIdeal.RegionValue

variable (m : (ℓ : Loc nD τ sig) → Buf (Elt Ideal) ℓ) (ρ : Dev nD → PrngReg) (c : Dev nD)

/-- The source words as the first stretch of host operations leaves them. -/
abbrev sW (e : Fin 850000) : BitVec 32 := W1 m ρ c (Proc.devRef .tc main_v3) (ix1 e)
/-- The target words as the first stretch of host operations leaves them. -/
abbrev dW (e : Fin 850000) : BitVec 32 := W1 m ρ c (Proc.devRef .tc main_v6) (ix1 e)
abbrev X (r : Fin 50000) (k : Fin 128) : EReal := m ((c : Thread nD τ).loc main_arg0) (ix2 r k)
abbrev Wa (k : Fin 128) (l : Fin 128) : EReal := m ((c : Thread nD τ).loc main_arg2) (ix2 k l)
abbrev ba (l : Fin 128) : EReal := m ((c : Thread nD τ).loc main_arg3) (ix1 l)
abbrev Wb (k : Fin 128) (l : Fin 64) : EReal := m ((c : Thread nD τ).loc main_arg4) (ix2 k l)
abbrev bb (l : Fin 64) : EReal := m ((c : Thread nD τ).loc main_arg5) (ix1 l)

/-- A buffer's contents read as a two-axis array of extended reals. -/
abbrev A2 {a b : ℕ} (f : (⟨2, ![a, b]⟩ : Shape).Idx → EReal) : (⟨2, ![a, b]⟩ : Shape).Idx → EReal := f

/-! ## The normalisation column -/

/-- The last two stretches before the first region, from ANY contents `V1` the first stretch leaves: the normalisation
    column is the guarded choice between the two vectors the first stretch wrote, as one column. -/
theorem v15_of (V1 : Valuation τ sig (Elt Ideal)) :
    StableHlo.after hostOps0_2 (StableHlo.after hostOps0_1 V1) (Proc.devRef .tc main_v15)
      = shapeCast S50000x1 (select (V1 (Proc.devRef .tc main_v12)) (V1 (Proc.devRef .tc main_v13))
          (broadcastInDim S50000 ![] bcast_S_S50000 (V1 (Proc.devRef .tc main_cst_2)))) shapeCasts_S50000_S50000x1 := by
  fold_read
  rfl

/-- The in-degree vector as the first stretch computes it from the target words. -/
theorem v10_eq : W1 m ρ c (Proc.devRef .tc main_v10)
    = degVec scatter_S50000_S850000x1_S850000_n_0_0_1 bcast_S_S50000 bcast_S_S850000 bcast_S850000_S850000x1_0 (W1 m ρ c (Proc.devRef .tc main_v6)) := by
  unfold degVec
  fold_read

theorem v12_eq : W1 m ρ c (Proc.devRef .tc main_v12)
    = cmpf (F := Ideal) .ogt (W1 m ρ c (Proc.devRef .tc main_v10)) (broadcastInDim S50000 ![] bcast_S_S50000 (constant (F := Ideal) S_ .f32 0x00000000#32)) := by
  fold_read

theorem v13_eq : W1 m ρ c (Proc.devRef .tc main_v13)
    = Host.rsqrt (F := Ideal) (s := S50000) (φ := .f32) (W1 m ρ c (Proc.devRef .tc main_v10)) := by
  fold_read

theorem cst2_eq : W1 m ρ c (Proc.devRef .tc main_cst_2) = constant (F := Ideal) S_ .f32 0x00000000#32 := by
  fold_read

theorem dinvCol (n : Fin 50000) (u : Fin 1) :
    W3 m ρ c (Proc.devRef .tc main_v15) (ix2 n u) = dinvOf (dW m ρ c) n := by
  have e := v15_of (W1 m ρ c)
  refine (congrFun e (ix2 n u)).trans ?_
  rw [Cert.SupCon.Ker.shapeCast_a_a1_apply, v12_eq, v13_eq, cst2_eq, v10_eq]
  exact dinvVec_apply _ _ rfl _ _ _ _ _ (fun i => bcastScalar_apply _ _ i) n

/-! ## Layer 1 -/

/-- Region 0's output: the rows of `x · W1`, each scaled by its node's factor. -/
theorem hs1 (r : Fin 50000) (l : Fin 128) :
    W4 m ρ c (Proc.devRef .tc main_v16) (ix2 r l) = mm (X m c) (Wa m c) r l * dinvOf (dW m ρ c) r := by
  have e : W4 m ρ c (Proc.devRef .tc main_v16)
      = linArr (K := 128) (C := 128) (V3 m ρ c main_arg0) (V3 m ρ c main_arg2) (V3 m ρ c main_v15) :=
    (W4_arr m ρ c 3).trans (region0_value (V3 m ρ) c)
  rw [e]
  show (∑ k : Fin 128, A2 (a := 50000) (b := 128) (W3 m ρ c (Proc.devRef .tc main_arg0)) (ix2 r k)
        * A2 (a := 128) (b := 128) (W3 m ρ c (Proc.devRef .tc main_arg2)) (ix2 k l))
      * A2 (a := 50000) (b := 1) (W3 m ρ c (Proc.devRef .tc main_v15)) (ix2 r (0 : Fin 1)) = _
  dsimp only [A2]
  rw [W3_arg0, W3_arg2, dinvCol]
  rfl

/-- The aggregation between regions 0 and 1, as the second stretch of host operations computes it. -/
theorem agg1_eq :
    W5 m ρ c (Proc.devRef .tc main_v26) = Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 (W1 m ρ c (Proc.devRef .tc main_v6)))
      (Host.gather gather_S50000x128_S850000x1_S850000x128_1_0_n_n_0_1_1128 (W4 m ρ c (Proc.devRef .tc main_v16))
        (broadcastInDim S850000x1 ![0] bcast_S850000_S850000x1_0
          (select (cmpi .slt (W1 m ρ c (Proc.devRef .tc main_v3)) (broadcastInDim S850000 ![] bcast_S_S850000 (constantI S_ 32 0#32)))
            (addi (W1 m ρ c (Proc.devRef .tc main_v3)) (broadcastInDim S850000 ![] bcast_S_S850000 (constantI S_ 32 50000#32)))
            (W1 m ρ c (Proc.devRef .tc main_v3))))) := by
  rw [← W4_v3' m ρ c, ← W4_v6' m ρ c]
  fold_read

theorem agg1 (n : Fin 50000) (l : Fin 128) :
    W5 m ρ c (Proc.devRef .tc main_v26) (ix2 n l)
      = z + ∑ e : Fin 850000, if (dW m ρ c e).toInt = (n.val : ℤ)
          then mm (X m c) (Wa m c) (rowOf (sW m ρ c e)) l * dinvOf (dW m ρ c) (rowOf (sW m ρ c e)) else 0 := by
  rw [agg1_eq]
  refine (aggregate_apply _ _ rfl _ _ rfl _ _ _ _ _ _ n l).trans ?_
  refine congrArg (z + ·) (Finset.sum_congr rfl fun e _ => ?_)
  rw [hs1]

/-- The bias of layer 1 as the one-row matrix region 1 reads. -/
theorem b1row (u : Fin 1) (l : Fin 128) :
    W5 m ρ c (Proc.devRef .tc main_v27) (ix2 u l) = ba m c l := by
  have e : W5 m ρ c (Proc.devRef .tc main_v27) = shapeCast S1x128 (m ((c : Thread nD τ).loc main_arg3)) shapeCasts_S128_S1x128 := by
    rw [← W4_arg3' m ρ c]
    fold_read
    rfl
  rw [e, shapeCast_n_1n_apply]

/-- Region 1's output: the positive part of layer 1. -/
theorem h1v (n : Fin 50000) (l : Fin 128) :
    W6 m ρ c (Proc.devRef .tc main_v28) (ix2 n l)
      = reluF (layerK (sW m ρ c) (dW m ρ c) (X m c) (Wa m c) (ba m c)) n l := by
  have e : W6 m ρ c (Proc.devRef .tc main_v28)
      = finReluArr (C := 128) (V5 m ρ c main_v26) (V5 m ρ c main_v15) (V5 m ρ c main_v27) :=
    (W6_arr m ρ c 3).trans (region1_value (V5 m ρ) c)
  rw [e]
  show max (A2 (a := 50000) (b := 128) (W5 m ρ c (Proc.devRef .tc main_v26)) (ix2 n l)
        * A2 (a := 50000) (b := 1) (W5 m ρ c (Proc.devRef .tc main_v15)) (ix2 n (0 : Fin 1))
      + A2 (a := 1) (b := 128) (W5 m ρ c (Proc.devRef .tc main_v27)) (ix2 (0 : Fin 1) l)) z = _
  dsimp only [A2]
  rw [agg1, b1row, W5_v15', dinvCol]
  rfl

/-! ## Layer 2 -/

/-- Region 2's output: the rows of `h · W2`, each scaled by its node's factor. -/
theorem hs2 (r : Fin 50000) (l : Fin 64) :
    W7 m ρ c (Proc.devRef .tc main_v29) (ix2 r l)
      = mm (reluF (layerK (sW m ρ c) (dW m ρ c) (X m c) (Wa m c) (ba m c))) (Wb m c) r l * dinvOf (dW m ρ c) r := by
  have e : W7 m ρ c (Proc.devRef .tc main_v29)
      = linArr (K := 128) (C := 64) (V6 m ρ c main_v28) (V6 m ρ c main_arg4) (V6 m ρ c main_v15) :=
    (W7_arr m ρ c 3).trans (region2_value (V6 m ρ) c)
  rw [e]
  show (∑ k : Fin 128, A2 (a := 50000) (b := 128) (W6 m ρ c (Proc.devRef .tc main_v28)) (ix2 r k)
        * A2 (a := 128) (b := 64) (W6 m ρ c (Proc.devRef .tc main_arg4)) (ix2 k l))
      * A2 (a := 50000) (b := 1) (W6 m ρ c (Proc.devRef .tc main_v15)) (ix2 r (0 : Fin 1)) = _
  dsimp only [A2]
  rw [W6_arg4', W6_v15', dinvCol]
  refine congrArg (· * dinvOf (dW m ρ c) r) (Finset.sum_congr rfl fun k _ => ?_)
  rw [h1v]

/-- The aggregation between regions 2 and 3, as the last stretch of host operations computes it. -/
theorem agg2_eq :
    W8 m ρ c (Proc.devRef .tc main_v39) = Host.scatterAdd (F := Ideal) scatter_S50000x64_S850000x1_S850000x64_1_0_0_1
      (broadcastInDim S50000x64 ![] bcast_S_S50000x64 (constant (F := Ideal) S_ .f32 0x00000000#32))
      (broadcastInDim S850000x1 ![0] bcast_S850000_S850000x1_0 (W1 m ρ c (Proc.devRef .tc main_v6)))
      (Host.gather gather_S50000x64_S850000x1_S850000x64_1_0_n_n_0_1_164 (W7 m ρ c (Proc.devRef .tc main_v29))
        (broadcastInDim S850000x1 ![0] bcast_S850000_S850000x1_0
          (select (cmpi .slt (W1 m ρ c (Proc.devRef .tc main_v3)) (broadcastInDim S850000 ![] bcast_S_S850000 (constantI S_ 32 0#32)))
            (addi (W1 m ρ c (Proc.devRef .tc main_v3)) (broadcastInDim S850000 ![] bcast_S_S850000 (constantI S_ 32 50000#32)))
            (W1 m ρ c (Proc.devRef .tc main_v3))))) := by
  rw [← W7_v3' m ρ c, ← W7_v6' m ρ c]
  fold_read

theorem agg2 (n : Fin 50000) (l : Fin 64) :
    W8 m ρ c (Proc.devRef .tc main_v39) (ix2 n l)
      = z + ∑ e : Fin 850000, if (dW m ρ c e).toInt = (n.val : ℤ)
          then mm (reluF (layerK (sW m ρ c) (dW m ρ c) (X m c) (Wa m c) (ba m c))) (Wb m c) (rowOf (sW m ρ c e)) l
            * dinvOf (dW m ρ c) (rowOf (sW m ρ c e)) else 0 := by
  rw [agg2_eq]
  refine (aggregate_apply _ _ rfl _ _ rfl _ _ _ _ _ _ n l).trans ?_
  refine congrArg (z + ·) (Finset.sum_congr rfl fun e _ => ?_)
  rw [hs2]

/-- The bias of layer 2 as the one-row matrix region 3 reads. -/
theorem b2row (u : Fin 1) (l : Fin 64) :
    W8 m ρ c (Proc.devRef .tc main_v40) (ix2 u l) = bb m c l := by
  have e : W8 m ρ c (Proc.devRef .tc main_v40) = shapeCast S1x64 (m ((c : Thread nD τ).loc main_arg5)) shapeCasts_S64_S1x64 := by
    rw [← W7_arg5' m ρ c]
    fold_read
    rfl
  rw [e, shapeCast_n_1n_apply]

/-- THE RESULT, entry by entry: region 3's output is the whole network with the target's factor outside the sums. -/
theorem kernel_value (n : Fin 50000) (l : Fin 64) :
    W9 m ρ c (Proc.devRef .tc main_v41) (ix2 n l)
      = outK (sW m ρ c) (dW m ρ c) (X m c) (Wa m c) (ba m c) (Wb m c) (bb m c) n l := by
  have e : W9 m ρ c (Proc.devRef .tc main_v41)
      = finArr (C := 64) (V8 m ρ c main_v39) (V8 m ρ c main_v15) (V8 m ρ c main_v40) :=
    (W9_arr m ρ c 3).trans (region3_value (V8 m ρ) c)
  rw [e]
  show A2 (a := 50000) (b := 64) (W8 m ρ c (Proc.devRef .tc main_v39)) (ix2 n l)
        * A2 (a := 50000) (b := 1) (W8 m ρ c (Proc.devRef .tc main_v15)) (ix2 n (0 : Fin 1))
      + A2 (a := 1) (b := 64) (W8 m ρ c (Proc.devRef .tc main_v40)) (ix2 (0 : Fin 1) l) = _
  dsimp only [A2]
  rw [agg2, b2row, W8_v15', dinvCol]
  rfl

end Cert.KernelIdeal.KValue

end
-- ==== Proof.lean ====
/-
  A two-layer graph convolution on 50000 nodes and 850000 edge endpoints (800000 edges and one self loop per node): the
  pipelined program against the plain one, over the extended reals.

  Both programs count the edges landing on every node, take the guarded inverse square root `d` of that count, and in
  each layer gather rows of a dense product at the edges' sources and add them up at the edges' targets. The plain
  program weights every gathered row by `d[source] * d[target]` before adding; the pipelined program scales the rows
  of the dense product by `d` once before the gather (inside its matrix-product regions) and the finished sums by `d`
  once afterwards (inside its finishing regions). The two agree because the target's factor is a nonnegative real,
  whatever the count is, so it distributes over a finite sum of extended reals, and because an edge that lands on a node
  has that node as the row its target word names (Proof/GcnSpec.lean). No input needs to be finite for this.

  The pieces: each region's output as one whole-array function of what it finds (Proof/RegionLin.lean,
  Proof/RegionFin.lean); the pipelined program's run with its result named and the buffers each segment leaves alone
  (Proof/KRun.lean, Proof/KChain.lean); its result entry by entry (Proof/KValue.lean); the plain program's result entry by
  entry (Proof/RefDinv.lean … Proof/RefValue.lean over its run, Proof/RefRun.lean and Proof/RefRead.lean); and the joint
  (Proof/Joint.lean). The idealization rewrote no operation, so `preserves` is trivial.
-/
import proofs.«130912_j54537494724630_2_alg».proof.Defs
import proofs.«130912_j54537494724630_2_alg».proof.Proof.Gen.Kernel
import proofs.«130912_j54537494724630_2_alg».proof.Proof.Gen.Kernel.Skeleton
import proofs.«130912_j54537494724630_2_alg».proof.Proof.Gen.Kernel.Launch
import proofs.«130912_j54537494724630_2_alg».proof.Proof.Gen.Kernel.Points
import proofs.«130912_j54537494724630_2_alg».proof.Proof.Gen.Kernel.Frame
import proofs.«130912_j54537494724630_2_alg».proof.Proof.Gen.KernelIdeal
import proofs.«130912_j54537494724630_2_alg».proof.Proof.Gen.KernelIdeal.Skeleton
import proofs.«130912_j54537494724630_2_alg».proof.Proof.Gen.KernelIdeal.Launch
import proofs.«130912_j54537494724630_2_alg».proof.Proof.Gen.KernelIdeal.Points
import proofs.«130912_j54537494724630_2_alg».proof.Proof.Gen.KernelIdeal.Frame
import proofs.«130912_j54537494724630_2_alg».proof.Proof.Gen.ReferenceIdeal
import proofs.«130912_j54537494724630_2_alg».proof.Proof.Gen.Pre_finite_inputs
import proofs.«130912_j54537494724630_2_alg».proof.Proof.Joint
import proofs.«130912_j54537494724630_2_alg».proof.Proof.KValue
import Idealize.ShloMosaic.Adequacy
import Idealize.ShloMosaic.Init

noncomputable section

namespace Cert.Proof

open Idealize.ShloMosaic Idealize.SL.Sem Cert.Kernel

/-- The three frames are the frame certificates (the plain program's: its run with the result dropped), the
    idealization rewrote nothing, and at the ideal values the two programs end with one result array: the pipelined
    program's entries are the convolution with the target's factor outside the sums, the plain program's the same with
    it inside, and the two arrangements are one function. -/
theorem claim : Cert.Claim := ⟨Cert.Kernel.Gen.facts, Cert.KernelIdeal.Gen.facts, Cert.ReferenceIdeal.Gen.facts, Cert.Pre_finite_inputs.Gen.facts,
  Joint.frame_kernel, Joint.frame_kernelIdeal, Joint.frame_referenceIdeal, Joint.preserves,
  Joint.algebraic Cert.KernelIdeal.KValue.kernel_value⟩

end Cert.Proof

end
